-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S2x1048576 : Shape := ⟨2, ![2, 1048576]⟩
abbrev S3x3 : Shape := ⟨2, ![3, 3]⟩
abbrev S3 : Shape := ⟨1, ![3]⟩
abbrev S3x128 : Shape := ⟨2, ![3, 128]⟩
abbrev S128 : Shape := ⟨1, ![128]⟩
abbrev S32768x512 : Shape := ⟨2, ![32768, 512]⟩
abbrev S512 : Shape := ⟨1, ![512]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S32768x512 : S_.BroadcastsInDim S32768x512 (![] : Fin 0 → Fin S32768x512.rank)
  reducesTo_S32768x512_S_d0_1 : S32768x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S128 .f32) (main_arg6 : FVec F S32768x512 .f32) (main_arg7 : FVec F S512 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32768x512 .f32 := Host.absf main_arg6
  let main_cst_8 : FVec F S_ .f32 := constant S_ .f32 0x7F800000#32
  let main_v25 : FVec F S32768x512 .f32 := broadcastInDim S32768x512 ![] bcast_S_S32768x512 main_cst_8
  let main_v26 : IVec S32768x512 1 := cmpf .olt main_v24 main_v25
  let main_c_9 : IVec S_ 1 := constantI S_ 1 1#1
  let main_v27 : IVec S_ 1 := (fun x v => Host.reduce IntOp.andi x v reducesTo_S32768x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S65536x3 .f32) (main_arg1 : IVec S2x1048576 32) (main_arg2 : FVec F S3x3 .f32) (main_arg3 : FVec F S3 .f32) (main_arg4 : FVec F S3x128 .f32) (main_arg5 : FVec F S128 .f32) (main_arg6 : FVec F S32768x512 .f32) (main_arg7 : FVec F S512 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S3x3 .f32 := Host.absf main_arg2
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_v13 main_v16
-- ==== Kernel.lean ====
abbrev S65536x3 : Shape := ⟨2, ![65536, 3]⟩
abbrev S2x1048576 : Shape := ⟨2, ![2, 1048576]⟩
abbrev S3x3 : Shape := ⟨2, ![3, 3]⟩
abbrev S3 : Shape := ⟨1, ![3]⟩
abbrev S3x128 : Shape := ⟨2, ![3, 128]⟩
abbrev S128 : Shape := ⟨1, ![128]⟩
abbrev S32768x512 : Shape := ⟨2, ![32768, 512]⟩
abbrev S512 : Shape := ⟨1, ![512]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x3 : Shape := ⟨2, ![1114112, 3]⟩
abbrev S1x3 : Shape := ⟨2, ![1, 3]⟩
abbrev S65536x128 : Shape := ⟨2, ![65536, 128]⟩
abbrev S1x128 : Shape := ⟨2, ![1, 128]⟩
abbrev S256x32768 : Shape := ⟨2, ![256, 32768]⟩
abbrev S1x512 : Shape := ⟨2, ![1, 512]⟩
abbrev S256x512 : Shape := ⟨2, ![256, 512]⟩
abbrev S256x4096 : Shape := ⟨2, ![256, 4096]⟩
abbrev S4096x256 : Shape := ⟨2, ![4096, 256]⟩
abbrev S1x256 : Shape := ⟨2, ![1, 256]⟩
abbrev S256x256 : Shape := ⟨2, ![256, 256]⟩

abbrev nBuf : Space → Nat
  | .hbm => 97
  | .vmem => 8
  | .smem => 0
  | _ => 0

abbrev bufTy : (tb : Table) → Fin (tcTables nBuf tb) → BufTy
  | .hbm, ⟨0, _⟩ => ⟨S65536x3, .f32⟩
  | .hbm, ⟨1, _⟩ => ⟨S2x1048576, .i32⟩
  | .hbm, ⟨2, _⟩ => ⟨S3x3, .f32⟩
  | .hbm, ⟨3, _⟩ => ⟨S3, .f32⟩
  | .hbm, ⟨4, _⟩ => ⟨S3x128, .f32⟩
  | .hbm, ⟨5, _⟩ => ⟨S128, .f32⟩
  | .hbm, ⟨6, _⟩ => ⟨S32768x512, .f32⟩
  | .hbm, ⟨7, _⟩ => ⟨S512, .f32⟩
  | .hbm, ⟨8, _⟩ => ⟨S65536, .i32⟩
  | .hbm, ⟨9, _⟩ => ⟨S1x1048576, .i32⟩
  | .hbm, ⟨10, _⟩ => ⟨S1048576, .i32⟩
  | .hbm, ⟨11, _⟩ => ⟨S1114112, .i32⟩
  | .hbm, ⟨12, _⟩ => ⟨S1x1048576, .i32⟩
  | .hbm, ⟨13, _⟩ => ⟨S1048576, .i32⟩
  | .hbm, ⟨14, _⟩ => ⟨S1114112, .i32⟩
  | .hbm, ⟨15, _⟩ => ⟨S_, .f32⟩
  | .hbm, ⟨16, _⟩ => ⟨S1114112, .f32⟩
  | .hbm, ⟨17, _⟩ => ⟨S_, .f32⟩
  | .hbm, ⟨18, _⟩ => ⟨S65536, .f32⟩
  | .hbm, ⟨19, _⟩ => ⟨S1114112x1, .i32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .i1⟩
  | .hbm, ⟨24, _⟩ => ⟨S65536, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S_, .i32⟩
  | .hbm, ⟨29, _⟩ => ⟨S1114112, .i32⟩
  | .hbm, ⟨30, _⟩ => ⟨S1114112, .i1⟩
  | .hbm, ⟨31, _⟩ => ⟨S_, .i32⟩
  | .hbm, ⟨32, _⟩ => ⟨S1114112, .i32⟩
  | .hbm, ⟨33, _⟩ => ⟨S1114112, .i32⟩
  | .hbm, ⟨34, _⟩ => ⟨S1114112, .i32⟩
  | .hbm, ⟨35, _⟩ => ⟨S1114112x1, .i32⟩
  | .hbm, ⟨36, _⟩ => ⟨S1114112, .f32⟩
  | .hbm, ⟨37, _⟩ => ⟨S_, .i32⟩
  | .hbm, ⟨38, _⟩ => ⟨S1114112, .i32⟩
  | .hbm, ⟨39, _⟩ => ⟨S1114112, .i1⟩
  | .hbm, ⟨40, _⟩ => ⟨S_, .i32⟩
  | .hbm, ⟨41, _⟩ => ⟨S1114112, .i32⟩
  | .hbm, ⟨42, _⟩ => ⟨S1114112, .i32⟩
  | .hbm, ⟨43, _⟩ => ⟨S1114112, .i32⟩
  | .hbm, ⟨44, _⟩ => ⟨S1114112x1, .i32⟩
  | .hbm, ⟨45, _⟩ => ⟨S1114112, .f32⟩
  | .hbm, ⟨46, _⟩ => ⟨S1114112, .f32⟩
  | .hbm, ⟨47, _⟩ => ⟨S_, .i32⟩
  | .hbm, ⟨48, _⟩ => ⟨S1114112, .i32⟩
  | .hbm, ⟨49, _⟩ => ⟨S1114112, .i1⟩
  | .hbm, ⟨50, _⟩ => ⟨S_, .i32⟩
  | .hbm, ⟨51, _⟩ => ⟨S1114112, .i32⟩
  | .hbm, ⟨52, _⟩ => ⟨S1114112, .i32⟩
  | .hbm, ⟨53, _⟩ => ⟨S1114112, .i32⟩
  | .hbm, ⟨54, _⟩ => ⟨S1114112x1, .i32⟩
  | .hbm, ⟨55, _⟩ => ⟨S1114112x3, .f32⟩
  | .hbm, ⟨56, _⟩ => ⟨S1114112x1, .f32⟩
  | .hbm, ⟨57, _⟩ => ⟨S1114112x3, .f32⟩
  | .hbm, ⟨58, _⟩ => ⟨S1114112x3, .f32⟩
  | .hbm, ⟨59, _⟩ => ⟨S_, .f32⟩
  | .hbm, ⟨60, _⟩ => ⟨S65536x3, .f32⟩
  | .hbm, ⟨61, _⟩ => ⟨S1114112x1, .i32⟩
  | .hbm, ⟨62, _⟩ => ⟨S65536x3, .f32⟩
  | .hbm, ⟨63, _⟩ => ⟨S65536x3, .f32⟩
  | .hbm, ⟨64, _⟩ => ⟨S1x3, .f32⟩
  | .hbm, ⟨65, _⟩ => ⟨S65536x3, .f32⟩
  | .hbm, ⟨66, _⟩ => ⟨S65536x3, .f32⟩
  | .hbm, ⟨67, _⟩ => ⟨S_, .f32⟩
  | .hbm, ⟨68, _⟩ => ⟨S65536x3, .f32⟩
  | .hbm, ⟨69, _⟩ => ⟨S65536x3, .i1⟩
  | .hbm, ⟨70, _⟩ => ⟨S_, .f32⟩
  | .hbm, ⟨71, _⟩ => ⟨S65536x3, .f32⟩
  | .hbm, ⟨72, _⟩ => ⟨S65536x3, .f32⟩
  | .hbm, ⟨73, _⟩ => ⟨S65536x3, .f32⟩
  | .hbm, ⟨74, _⟩ => ⟨S_, .i32⟩
  | .hbm, ⟨75, _⟩ => ⟨S1114112, .i32⟩
  | .hbm, ⟨76, _⟩ => ⟨S1114112, .i1⟩
  | .hbm, ⟨77, _⟩ => ⟨S_, .i32⟩
  | .hbm, ⟨78, _⟩ => ⟨S1114112, .i32⟩
  | .hbm, ⟨79, _⟩ => ⟨S1114112, .i32⟩
  | .hbm, ⟨80, _⟩ => ⟨S1114112, .i32⟩
  | .hbm, ⟨81, _⟩ => ⟨S1114112x1, .i32⟩
  | .hbm, ⟨82, _⟩ => ⟨S1114112x3, .f32⟩
  | .hbm, ⟨83, _⟩ => ⟨S1114112x1, .f32⟩
  | .hbm, ⟨84, _⟩ => ⟨S1114112x3, .f32⟩
  | .hbm, ⟨85, _⟩ => ⟨S1114112x3, .f32⟩
  | .hbm, ⟨86, _⟩ => ⟨S_, .f32⟩
  | .hbm, ⟨87, _⟩ => ⟨S65536x3, .f32⟩
  | .hbm, ⟨88, _⟩ => ⟨S1114112x1, .i32⟩
  | .hbm, ⟨89, _⟩ => ⟨S65536x3, .f32⟩
  | .hbm, ⟨90, _⟩ => ⟨S65536x128, .f32⟩
  | .hbm, ⟨91, _⟩ => ⟨S1x128, .f32⟩
  | .hbm, ⟨92, _⟩ => ⟨S65536x128, .f32⟩
  | .hbm, ⟨93, _⟩ => ⟨S65536x128, .f32⟩
  | .hbm, ⟨94, _⟩ => ⟨S256x32768, .f32⟩
  | .hbm, ⟨95, _⟩ => ⟨S1x512, .f32⟩
  | .hbm, ⟨96, _⟩ => ⟨S256x512, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x3_0_1 : S1114112x1.BroadcastsInDim S1114112x3 (![0, 1] : Fin 2 → Fin S1114112x3.rank)
  bcast_S_S65536x3 : S_.BroadcastsInDim S65536x3 (![] : Fin 0 → Fin S65536x3.rank)
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S256x32768 : S65536x128.ShapeCasts S256x32768
  shapeCasts_S512_S1x512 : S512.ShapeCasts S1x512
  inb_S256x256_S256x256_0_0 : ∀ a, (![0, 0] : Fin 2 → Nat) a + S256x256.size a ≤ S256x256.size a
  h_S256x256 : 0 < S256x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  gather_S65536x3_S1114112x1_S1114112x3_1_0_n_n_0_1_13_wf : GatherDims.WF S65536x3 S1114112x1 S1114112x3 [1] [0] [] [0] [] 1 ![1, 3]
  scatter_S65536x3_S1114112x1_S1114112x3_1_0_0_1_wf : ScatterDims.WF S65536x3 S1114112x1 S1114112x3 [1] [0] [0] 1
  dot_S65536x3_S3x3_S65536x3_1_0_0_1_n_n_wf : DotDims.WF S65536x3 S3x3 S65536x3 [1] [0] [0] [1] [] []
  dot_S65536x3_S3x128_S65536x128_1_0_0_1_n_n_wf : DotDims.WF S65536x3 S3x128 S65536x128 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x32768.size a
  hwx0_0 : ∀ i : grid0.Coords, EltTy.bits .f32 = 32 ∨ (Rect.block (s := S256x32768) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S32768x512.size a
  hwx0_1 : ∀ i : grid0.Coords, EltTy.bits .f32 = 32 ∨ (Rect.block (s := S32768x512) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x512.size a
  hwx0_2 : ∀ i : grid0.Coords, EltTy.bits .f32 = 32 ∨ (Rect.block (s := S1x512) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x512.size a
  hwx0_3 : ∀ i : grid0.Coords, EltTy.bits .f32 = 32 ∨ (Rect.block (s := S256x512) S256x256.size (cc0_transform_3 i) (hinb0_3 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x3_S1114112x1_S1114112x3_1_0_n_n_0_1_13 : GatherDims S65536x3 S1114112x1 S1114112x3 where
  offsetDims := [1]
  collapsedSliceDims := [0]
  operandBatchingDims := []
  startIndicesBatchingDims := []
  startIndexMap := [0]
  indexVectorDim := 1
  sliceSizes := ![1, 3]
  wf := gather_S65536x3_S1114112x1_S1114112x3_1_0_n_n_0_1_13_wf
def scatter_S65536x3_S1114112x1_S1114112x3_1_0_0_1 : ScatterDims S65536x3 S1114112x1 S1114112x3 where
  updateWindowDims := [1]
  insertedWindowDims := [0]
  scatterDimsToOperandDims := [0]
  indexVectorDim := 1
  wf := scatter_S65536x3_S1114112x1_S1114112x3_1_0_0_1_wf
def dot_S65536x3_S3x3_S65536x3_1_0_0_1_n_n : DotDims S65536x3 S3x3 S65536x3 where
  lhsContracting := [1]
  rhsContracting := [0]
  lhsNonContracting := [0]
  rhsNonContracting := [1]
  lhsBatch := []
  rhsBatch := []
  wf := dot_S65536x3_S3x3_S65536x3_1_0_0_1_n_n_wf
def dot_S65536x3_S3x128_S65536x128_1_0_0_1_n_n : DotDims S65536x3 S3x128 S65536x128 where
  lhsContracting := [1]
  rhsContracting := [0]
  lhsNonContracting := [0]
  rhsNonContracting := [1]
  lhsBatch := []
  rhsBatch := []
  wf := dot_S65536x3_S3x128_S65536x128_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v70) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x3 : Shape := ⟨2, ![65536, 3]⟩
abbrev S2x1048576 : Shape := ⟨2, ![2, 1048576]⟩
abbrev S3x3 : Shape := ⟨2, ![3, 3]⟩
abbrev S3 : Shape := ⟨1, ![3]⟩
abbrev S3x128 : Shape := ⟨2, ![3, 128]⟩
abbrev S128 : Shape := ⟨1, ![128]⟩
abbrev S32768x512 : Shape := ⟨2, ![32768, 512]⟩
abbrev S512 : Shape := ⟨1, ![512]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x3 : Shape := ⟨2, ![1114112, 3]⟩
abbrev S1x3 : Shape := ⟨2, ![1, 3]⟩
abbrev S65536x128 : Shape := ⟨2, ![65536, 128]⟩
abbrev S1114112x128 : Shape := ⟨2, ![1114112, 128]⟩
abbrev S1x128 : Shape := ⟨2, ![1, 128]⟩
abbrev S256x32768 : Shape := ⟨2, ![256, 32768]⟩
abbrev S256x512 : Shape := ⟨2, ![256, 512]⟩
abbrev S1x512 : Shape := ⟨2, ![1, 512]⟩

abbrev nBuf : Space → Nat
  | .hbm => 138
  | .vmem => 0
  | .smem => 0
  | _ => 0

abbrev hbmTy0_0 (i : Nat) : BufTy := match i % 128 with
  | 0 => ⟨S65536x3, .f32⟩
  | 1 => ⟨S2x1048576, .i32⟩
  | 2 => ⟨S3x3, .f32⟩
  | 3 => ⟨S3, .f32⟩
  | 4 => ⟨S3x128, .f32⟩
  | 5 => ⟨S128, .f32⟩
  | 6 => ⟨S32768x512, .f32⟩
  | 7 => ⟨S512, .f32⟩
  | 8 => ⟨S65536, .i32⟩
  | 9 => ⟨S1x1048576, .i32⟩
  | 10 => ⟨S1048576, .i32⟩
  | 11 => ⟨S1114112, .i32⟩
  | 12 => ⟨S1x1048576, .i32⟩
  | 13 => ⟨S1048576, .i32⟩
  | 14 => ⟨S1114112, .i32⟩
  | 15 => ⟨S_, .f32⟩
  | 16 => ⟨S1114112, .f32⟩
  | 17 => ⟨S_, .f32⟩
  | 18 => ⟨S65536, .f32⟩
  | 19 => ⟨S1114112x1, .i32⟩
  | 20 => ⟨S65536, .f32⟩
  | 21 => ⟨S_, .f32⟩
  | 22 => ⟨S65536, .f32⟩
  | 23 => ⟨S65536, .i1⟩
  | 24 => ⟨S65536, .f32⟩
  | 25 => ⟨S_, .f32⟩
  | 26 => ⟨S65536, .f32⟩
  | 27 => ⟨S65536, .f32⟩
  | 28 => ⟨S_, .i32⟩
  | 29 => ⟨S1114112, .i32⟩
  | 30 => ⟨S1114112, .i1⟩
  | 31 => ⟨S_, .i32⟩
  | 32 => ⟨S1114112, .i32⟩
  | 33 => ⟨S1114112, .i32⟩
  | 34 => ⟨S1114112, .i32⟩
  | 35 => ⟨S1114112x1, .i32⟩
  | 36 => ⟨S1114112, .f32⟩
  | 37 => ⟨S_, .i32⟩
  | 38 => ⟨S1114112, .i32⟩
  | 39 => ⟨S1114112, .i1⟩
  | 40 => ⟨S_, .i32⟩
  | 41 => ⟨S1114112, .i32⟩
  | 42 => ⟨S1114112, .i32⟩
  | 43 => ⟨S1114112, .i32⟩
  | 44 => ⟨S1114112x1, .i32⟩
  | 45 => ⟨S1114112, .f32⟩
  | 46 => ⟨S1114112, .f32⟩
  | 47 => ⟨S65536x3, .f32⟩
  | 48 => ⟨S_, .i32⟩
  | 49 => ⟨S1114112, .i32⟩
  | 50 => ⟨S1114112, .i1⟩
  | 51 => ⟨S_, .i32⟩
  | 52 => ⟨S1114112, .i32⟩
  | 53 => ⟨S1114112, .i32⟩
  | 54 => ⟨S1114112, .i32⟩
  | 55 => ⟨S1114112x1, .i32⟩
  | 56 => ⟨S1114112x3, .f32⟩
  | 57 => ⟨S1114112x1, .f32⟩
  | 58 => ⟨S1114112x3, .f32⟩
  | 59 => ⟨S1114112x3, .f32⟩
  | 60 => ⟨S_, .f32⟩
  | 61 => ⟨S65536x3, .f32⟩
  | 62 => ⟨S1114112x1, .i32⟩
  | 63 => ⟨S65536x3, .f32⟩
  | 64 => ⟨S1x3, .f32⟩
  | 65 => ⟨S65536x3, .f32⟩
  | 66 => ⟨S65536x3, .f32⟩
  | 67 => ⟨S_, .f32⟩
  | 68 => ⟨S65536x3, .f32⟩
  | 69 => ⟨S65536x3, .i1⟩
  | 70 => ⟨S_, .f32⟩
  | 71 => ⟨S65536x3, .f32⟩
  | 72 => ⟨S65536x3, .f32⟩
  | 73 => ⟨S65536x3, .f32⟩
  | 74 => ⟨S65536, .i32⟩
  | 75 => ⟨S1x1048576, .i32⟩
  | 76 => ⟨S1048576, .i32⟩
  | 77 => ⟨S1114112, .i32⟩
  | 78 => ⟨S1x1048576, .i32⟩
  | 79 => ⟨S1048576, .i32⟩
  | 80 => ⟨S1114112, .i32⟩
  | 81 => ⟨S_, .f32⟩
  | 82 => ⟨S1114112, .f32⟩
  | 83 => ⟨S_, .f32⟩
  | 84 => ⟨S65536, .f32⟩
  | 85 => ⟨S1114112x1, .i32⟩
  | 86 => ⟨S65536, .f32⟩
  | 87 => ⟨S_, .f32⟩
  | 88 => ⟨S65536, .f32⟩
  | 89 => ⟨S65536, .i1⟩
  | 90 => ⟨S65536, .f32⟩
  | 91 => ⟨S_, .f32⟩
  | 92 => ⟨S65536, .f32⟩
  | 93 => ⟨S65536, .f32⟩
  | 94 => ⟨S_, .i32⟩
  | 95 => ⟨S1114112, .i32⟩
  | 96 => ⟨S1114112, .i1⟩
  | 97 => ⟨S_, .i32⟩
  | 98 => ⟨S1114112, .i32⟩
  | 99 => ⟨S1114112, .i32⟩
  | 100 => ⟨S1114112, .i32⟩
  | 101 => ⟨S1114112x1, .i32⟩
  | 102 => ⟨S1114112, .f32⟩
  | 103 => ⟨S_, .i32⟩
  | 104 => ⟨S1114112, .i32⟩
  | 105 => ⟨S1114112, .i1⟩
  | 106 => ⟨S_, .i32⟩
  | 107 => ⟨S1114112, .i32⟩
  | 108 => ⟨S1114112, .i32⟩
  | 109 => ⟨S1114112, .i32⟩
  | 110 => ⟨S1114112x1, .i32⟩
  | 111 => ⟨S1114112, .f32⟩
  | 112 => ⟨S1114112, .f32⟩
  | 113 => ⟨S65536x128, .f32⟩
  | 114 => ⟨S_, .i32⟩
  | 115 => ⟨S1114112, .i32⟩
  | 116 => ⟨S1114112, .i1⟩
  | 117 => ⟨S_, .i32⟩
  | 118 => ⟨S1114112, .i32⟩
  | 119 => ⟨S1114112, .i32⟩
  | 120 => ⟨S1114112, .i32⟩
  | 121 => ⟨S1114112x1, .i32⟩
  | 122 => ⟨S1114112x128, .f32⟩
  | 123 => ⟨S1114112x1, .f32⟩
  | 124 => ⟨S1114112x128, .f32⟩
  | 125 => ⟨S1114112x128, .f32⟩
  | 126 => ⟨S_, .f32⟩
  | 127 => ⟨S65536x128, .f32⟩
  | _ => ⟨S65536x3, .f32⟩

abbrev hbmTy0_1 (i : Nat) : BufTy := match i % 128 with
  | 0 => ⟨S1114112x1, .i32⟩
  | 1 => ⟨S65536x128, .f32⟩
  | 2 => ⟨S1x128, .f32⟩
  | 3 => ⟨S65536x128, .f32⟩
  | 4 => ⟨S65536x128, .f32⟩
  | 5 => ⟨S256x32768, .f32⟩
  | 6 => ⟨S256x512, .f32⟩
  | 7 => ⟨S1x512, .f32⟩
  | 8 => ⟨S256x512, .f32⟩
  | 9 => ⟨S256x512, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_c_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_19 : Ref sig .tc := ⟨.hbm, 114, rfl⟩
abbrev main_v85 : Ref sig .tc := ⟨.hbm, 115, rfl⟩
abbrev main_v86 : Ref sig .tc := ⟨.hbm, 116, rfl⟩
abbrev main_c_20 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_21 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x3_0_1 : S1114112x1.BroadcastsInDim S1114112x3 (![0, 1] : Fin 2 → Fin S1114112x3.rank)
  bcast_S_S65536x3 : S_.BroadcastsInDim S65536x3 (![] : Fin 0 → Fin S65536x3.rank)
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S256x32768 : S65536x128.ShapeCasts S256x32768
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x3_S3x3_S65536x3_1_0_0_1_n_n_wf : DotDims.WF S65536x3 S3x3 S65536x3 [1] [0] [0] [1] [] []
  gather_S65536x3_S1114112x1_S1114112x3_1_0_n_n_0_1_13_wf : GatherDims.WF S65536x3 S1114112x1 S1114112x3 [1] [0] [] [0] [] 1 ![1, 3]
  scatter_S65536x3_S1114112x1_S1114112x3_1_0_0_1_wf : ScatterDims.WF S65536x3 S1114112x1 S1114112x3 [1] [0] [0] 1
  dot_S65536x3_S3x128_S65536x128_1_0_0_1_n_n_wf : DotDims.WF S65536x3 S3x128 S65536x128 [1] [0] [0] [1] [] []
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S256x32768_S32768x512_S256x512_1_0_0_1_n_n_wf : DotDims.WF S256x32768 S32768x512 S256x512 [1] [0] [0] [1] [] []

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x3_S3x3_S65536x3_1_0_0_1_n_n : DotDims S65536x3 S3x3 S65536x3 where
  lhsContracting := [1]
  rhsContracting := [0]
  lhsNonContracting := [0]
  rhsNonContracting := [1]
  lhsBatch := []
  rhsBatch := []
  wf := dot_S65536x3_S3x3_S65536x3_1_0_0_1_n_n_wf
def gather_S65536x3_S1114112x1_S1114112x3_1_0_n_n_0_1_13 : GatherDims S65536x3 S1114112x1 S1114112x3 where
  offsetDims := [1]
  collapsedSliceDims := [0]
  operandBatchingDims := []
  startIndicesBatchingDims := []
  startIndexMap := [0]
  indexVectorDim := 1
  sliceSizes := ![1, 3]
  wf := gather_S65536x3_S1114112x1_S1114112x3_1_0_n_n_0_1_13_wf
def scatter_S65536x3_S1114112x1_S1114112x3_1_0_0_1 : ScatterDims S65536x3 S1114112x1 S1114112x3 where
  updateWindowDims := [1]
  insertedWindowDims := [0]
  scatterDimsToOperandDims := [0]
  indexVectorDim := 1
  wf := scatter_S65536x3_S1114112x1_S1114112x3_1_0_0_1_wf
def dot_S65536x3_S3x128_S65536x128_1_0_0_1_n_n : DotDims S65536x3 S3x128 S65536x128 where
  lhsContracting := [1]
  rhsContracting := [0]
  lhsNonContracting := [0]
  rhsNonContracting := [1]
  lhsBatch := []
  rhsBatch := []
  wf := dot_S65536x3_S3x128_S65536x128_1_0_0_1_n_n_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S256x32768_S32768x512_S256x512_1_0_0_1_n_n : DotDims S256x32768 S32768x512 S256x512 where
  lhsContracting := [1]
  rhsContracting := [0]
  lhsNonContracting := [0]
  rhsNonContracting := [1]
  lhsBatch := []
  rhsBatch := []
  wf := dot_S256x32768_S32768x512_S256x512_1_0_0_1_n_n_wf

class Facts : Prop extends Facts₀ where

variable [Facts]
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«178894_j54752243089440_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.KernelProjPay.lean ====
/-
  The projection kernel's three stores, read at one entry of the [256, 256] output block at the ideal values.

  The block is zeroed (the first store), gets the product of a [256, 4096] tile of the left operand with a
  [4096, 256] tile of the right operand added to it (the second store, at every grid point), and gets the
  bias row added to every one of its rows (the third store). At the ideal values a change of float format is
  the identity, so the operands rounded to the narrow format before the product are the operands; the
  product into the zero accumulator is rows times columns. Entry (p, q) therefore reads: zero; the entry
  before plus the sum over the tile's 4096 places r of left (p, r) times right (r, q); the entry before plus
  bias (0, q).
-/
import proofs.«178894_j54752243089440_2_alg».proof.Proof.Gen.KernelIdeal.Skeleton
import proofs.«178894_j54752243089440_2_alg».proof.Proof.LibMatProd
import Idealize.ShloMosaic.Lib.Pipeline.Value

noncomputable section

namespace Cert.KernelIdeal.Proj

open Idealize.ShloMosaic Idealize.ShloMosaic.ValueIdx Cert.KernelIdeal Cert.KernelIdeal.Gen

/-- The zeroed block: every entry is zero. -/
theorem pay1_apply (y : S256x256.Idx) : k0_pay1 (F := Ideal) y = 0 := by
  unfold k0_pay1
  exact Ideal.ofBits_zero_f32

/-- The tile product over the kernel's contraction record is rows times columns. -/
theorem tile_matmul (a : Vec Ideal S256x4096 .f32) (b : Vec Ideal S4096x256 .f32) :
    matmul dot_S256x4096_S4096x256_S256x256_1_0_0_1_n_n none
        (truncf .bf16 a bitsLt_bf16_f32 : FVec Ideal S256x4096 .bf16) (truncf .bf16 b bitsLt_bf16_f32 : FVec Ideal S4096x256 .bf16)
        (constant (F := Ideal) S256x256 .f32 0x00000000#32)
      = Cert.Lib.MatProd.prod (M := 256) (K := 4096) (N := 256) a b :=
  Cert.Lib.MatProd.matmul_zero_eq_prod dot_S256x4096_S4096x256_S256x256_1_0_0_1_n_n rfl rfl
    (fun j q => by simp [DotDims.lhsIdx, dot_S256x4096_S4096x256_S256x256_1_0_0_1_n_n]; rfl)
    (fun j q => DotDims.lhsIdx_val_of_single _ (cl := 1) rfl j q)
    (fun j q => DotDims.rhsIdx_val_of_single _ (cr := 0) rfl j q)
    (fun j q => by simp [DotDims.rhsIdx, dot_S256x4096_S4096x256_S256x256_1_0_0_1_n_n]; rfl)
    none _ _

/-- The accumulating store at entry (p, q): the entry before plus the tile's 4096 products. -/
theorem pay2_apply (a : Vec Ideal S256x4096 .f32) (b : Vec Ideal S4096x256 .f32) (acc : Vec Ideal S256x256 .f32)
    (p q : Fin 256) :
    k0_pay2 (F := Ideal) a b acc (ix2 p q) = acc (ix2 p q) + ∑ r : Fin 4096, a (ix2 p r) * b (ix2 r q) := by
  unfold k0_pay2
  rw [shapeCast_self, shapeCast_self, tile_matmul]
  rfl

/-- The bias store at entry (p, q): the entry before plus the bias row's entry q. -/
theorem pay3_apply (acc : Vec Ideal S256x256 .f32) (bias : Vec Ideal S1x256 .f32) (p q : Fin 256) :
    k0_pay3 (F := Ideal) acc bias (ix2 p q) = acc (ix2 p q) + bias (ix2 ⟨0, by decide⟩ q) := by
  unfold k0_pay3
  rw [shapeCast_self, shapeCast_self, addf_apply]
  congr 1
  refine broadcastTo_apply _ _ _ _ (fun a => ?_)
  match a with
  | ⟨0, _⟩ => rfl
  | ⟨1, _⟩ => rfl

end Cert.KernelIdeal.Proj

end
-- ==== Proof.KernelProjBlocks.lean ====
/-
  The projection kernel's input blocks, read off the arrays the region finds.

  The grid has 2 × 8 points; point t has column block t / 8 and contraction tile t % 8. A block's coordinate
  in its array is the block's index on that axis times the block's extent plus the coordinate inside the
  block. The left operand's block at t is rows 0 … 255, columns 4096 · (t % 8) … + 4095 of the [256, 32768]
  array; the right operand's is rows 4096 · (t % 8) … + 4095, columns 256 · (t / 8) … + 255 of the
  [32768, 512] array; the bias block is columns 256 · (t / 8) … + 255 of the [1, 512] row. The relations
  between the printed index maps and t are decided once over the sixteen points. Each read is stated for an
  arbitrary array of the window's shape first, and then taken at the array the region finds.
-/
import proofs.«178894_j54752243089440_2_alg».proof.Proof.Gen.KernelIdeal.Frame.Runs
import Idealize.ShloMosaic.Lib.ValueIdx

noncomputable section

namespace Cert.KernelIdeal.Proj

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD)

/-- The left operand's block index at point t: row block 0, contraction tile t % 8. -/
theorem index_left : ∀ t : Fin cfg0.N, win0_0.index t (0 : Fin 2) = 0 ∧ win0_0.index t (1 : Fin 2) = t.val % 8 :=
  (by decide +kernel : ∀ t : Fin grid0.N, _)

/-- The right operand's block index at point t: contraction tile t % 8, column block t / 8. -/
theorem index_right : ∀ t : Fin cfg0.N, win0_1.index t (0 : Fin 2) = t.val % 8 ∧ win0_1.index t (1 : Fin 2) = t.val / 8 :=
  (by decide +kernel : ∀ t : Fin grid0.N, _)

/-- The bias block's index at point t: row 0, column block t / 8. -/
theorem index_bias : ∀ t : Fin cfg0.N, win0_2.index t (0 : Fin 2) = 0 ∧ win0_2.index t (1 : Fin 2) = t.val / 8 :=
  (by decide +kernel : ∀ t : Fin grid0.N, _)

/-- Entry (p, r) of the left window's block at point t of any [256, 32768] array is the array's entry
    (p, 4096 · (t % 8) + r). -/
theorem read_left (f : S256x32768.Idx → EReal) (t : Fin cfg0.N) (p : Fin 256) (r : Fin 4096) :
    ((cfg0.win 0).blk t).view.read (Elt Ideal) f (ix2 p r)
      = f (ix2 p (⟨4096 * (t.val % 8) + r.val, by omega⟩ : Fin 32768)) := by
  obtain ⟨e0, e1⟩ := index_left t
  show f (((cfg0.win 0).blk t).view.emb (ix2 p r)) = _
  refine congrArg f (funext fun a => Fin.ext ?_)
  match a with
  | ⟨0, _⟩ => show win0_0.index t (0 : Fin 2) * 256 + 1 * p.val = p.val; omega
  | ⟨1, _⟩ => show win0_0.index t (1 : Fin 2) * 4096 + 1 * r.val = 4096 * (t.val % 8) + r.val; omega

/-- Entry (r, q) of the right window's block at point t of any [32768, 512] array is the array's entry
    (4096 · (t % 8) + r, 256 · (t / 8) + q). -/
theorem read_right (f : S32768x512.Idx → EReal) (t : Fin cfg0.N) (r : Fin 4096) (q : Fin 256) :
    ((cfg0.win 1).blk t).view.read (Elt Ideal) f (ix2 r q)
      = f (ix2 (⟨4096 * (t.val % 8) + r.val, by omega⟩ : Fin 32768)
          (⟨256 * (t.val / 8) + q.val, by have := lt_of_lt_of_eq t.isLt (show cfg0.N = 16 from N_0); omega⟩ : Fin 512)) := by
  obtain ⟨e0, e1⟩ := index_right t
  show f (((cfg0.win 1).blk t).view.emb (ix2 r q)) = _
  refine congrArg f (funext fun a => Fin.ext ?_)
  match a with
  | ⟨0, _⟩ => show win0_1.index t (0 : Fin 2) * 4096 + 1 * r.val = 4096 * (t.val % 8) + r.val; omega
  | ⟨1, _⟩ => show win0_1.index t (1 : Fin 2) * 256 + 1 * q.val = 256 * (t.val / 8) + q.val; omega

/-- Entry (0, q) of the bias window's block at point t of any [1, 512] row is the row's entry (0, 256 · (t / 8) + q). -/
theorem read_bias (f : S1x512.Idx → EReal) (t : Fin cfg0.N) (q : Fin 256) :
    ((cfg0.win 2).blk t).view.read (Elt Ideal) f (ix2 (⟨0, by decide⟩ : Fin 1) q)
      = f (ix2 (⟨0, by decide⟩ : Fin 1)
          (⟨256 * (t.val / 8) + q.val, by have := lt_of_lt_of_eq t.isLt (show cfg0.N = 16 from N_0); omega⟩ : Fin 512)) := by
  obtain ⟨e0, e1⟩ := index_bias t
  show f (((cfg0.win 2).blk t).view.emb (ix2 (⟨0, by decide⟩ : Fin 1) q)) = _
  refine congrArg f (funext fun a => Fin.ext ?_)
  match a with
  | ⟨0, _⟩ => show win0_2.index t (0 : Fin 2) * 1 + 1 * 0 = 0; omega
  | ⟨1, _⟩ => show win0_2.index t (1 : Fin 2) * 256 + 1 * q.val = 256 * (t.val / 8) + q.val; omega

/-- Entry (p, r) of the left operand's block at point t is the array's entry (p, 4096 · (t % 8) + r). -/
theorem left_apply (t : Fin cfg0.N) (p : Fin 256) (r : Fin 4096) :
    iblk (F := Ideal) m c 0 t (ix2 p r)
      = V m c main_v70 (ix2 p (⟨4096 * (t.val % 8) + r.val, by omega⟩ : Fin 32768)) :=
  read_left (V m c main_v70) t p r

/-- Entry (r, q) of the right operand's block at point t is the array's entry (4096 · (t % 8) + r, 256 · (t / 8) + q). -/
theorem right_apply (t : Fin cfg0.N) (r : Fin 4096) (q : Fin 256) :
    iblk (F := Ideal) m c 1 t (ix2 r q)
      = V m c main_arg6 (ix2 (⟨4096 * (t.val % 8) + r.val, by omega⟩ : Fin 32768)
          (⟨256 * (t.val / 8) + q.val, by have := lt_of_lt_of_eq t.isLt (show cfg0.N = 16 from N_0); omega⟩ : Fin 512)) :=
  read_right (V m c main_arg6) t r q

/-- Entry (0, q) of the bias block at point t is the bias row's entry (0, 256 · (t / 8) + q). -/
theorem bias_apply (t : Fin cfg0.N) (q : Fin 256) :
    iblk (F := Ideal) m c 2 t (ix2 (⟨0, by decide⟩ : Fin 1) q)
      = V m c main_v71 (ix2 (⟨0, by decide⟩ : Fin 1)
          (⟨256 * (t.val / 8) + q.val, by have := lt_of_lt_of_eq t.isLt (show cfg0.N = 16 from N_0); omega⟩ : Fin 512)) :=
  read_bias (V m c main_v71) t q

end Cert.KernelIdeal.Proj

end
-- ==== Proof.KernelProjTiles.lean ====
/-
  A sum over the 32768 contraction places, taken tile by tile.

  The contraction axis is cut into 8 tiles of 4096 consecutive places: place k lies in tile k / 4096 at
  offset k % 4096, and tile s holds the places 4096 · s … 4096 · s + 4095. In any commutative additive monoid
  the sum over all places is the sum, over the tiles, of the sum over each tile's places: only
  commutativity and associativity of addition enter, no finiteness of the terms.
-/
import Mathlib.Algebra.BigOperators.Fin
import Mathlib.Algebra.BigOperators.Group.Finset.Sigma
import Mathlib.Data.Fintype.BigOperators

namespace Cert.KernelIdeal.Proj

/-- Place r of tile s, as a place of the whole axis (the tile number is read modulo 8, so that the place is
    in range for every natural s). -/
def place (s : ℕ) (r : Fin 4096) : Fin 32768 := ⟨4096 * (s % 8) + r.val, by have := r.isLt; omega⟩

theorem place_val (s : ℕ) (r : Fin 4096) : (place s r).val = 4096 * (s % 8) + r.val := rfl

/-- The places of the axis are the pairs (tile, offset). -/
def placeEquiv : Fin 8 × Fin 4096 ≃ Fin 32768 where
  toFun x := place x.1.val x.2
  invFun k := (⟨k.val / 4096, by have := k.isLt; omega⟩, ⟨k.val % 4096, Nat.mod_lt _ (by decide)⟩)
  left_inv x := by
    obtain ⟨a, b⟩ := x
    have ha := a.isLt
    have hb := b.isLt
    refine Prod.ext (Fin.ext ?_) (Fin.ext ?_)
    · show (4096 * (a.val % 8) + b.val) / 4096 = a.val
      omega
    · show (4096 * (a.val % 8) + b.val) % 4096 = b.val
      omega
  right_inv k := by
    have hk := k.isLt
    refine Fin.ext ?_
    show 4096 * (k.val / 4096 % 8) + k.val % 4096 = k.val
    omega

/-- The sum over the whole axis is the sum over the eight tiles of each tile's sum. -/
theorem sum_tiles {β : Type*} [AddCommMonoid β] (f : Fin 32768 → β) :
    ∑ k : Fin 32768, f k = ∑ s ∈ Finset.range 8, ∑ r : Fin 4096, f (place s r) := by
  rw [← Equiv.sum_comp placeEquiv f, Fintype.sum_prod_type,
    ← Fin.sum_univ_eq_sum_range (fun s => ∑ r : Fin 4096, f (place s r)) 8]
  rfl

end Cert.KernelIdeal.Proj
-- ==== Proof.KernelProjSteps.lean ====
/-
  What each grid point does to one entry of the output block, in terms of the arrays the region finds.

  Point n works on contraction tile n % 8 and column block n / 8. Write tile n (p, q) for the sum, over the
  4096 places r of that tile, of left (p, 4096 · (n % 8) + r) times right (4096 · (n % 8) + r, 256 · (n / 8) + q).
  The first point of a run leaves 0 + tile n (p, q) in entry (p, q) of the block; a middle point adds its
  tile n (p, q) to what the point before left; the last point adds its tile and then the bias entry
  (0, 256 · (n / 8) + q).
-/
import proofs.«178894_j54752243089440_2_alg».proof.Proof.Gen.KernelIdeal.Value
import proofs.«178894_j54752243089440_2_alg».proof.Proof.KernelProjPay
import proofs.«178894_j54752243089440_2_alg».proof.Proof.KernelProjBlocks
import proofs.«178894_j54752243089440_2_alg».proof.Proof.KernelProjTiles

noncomputable section

namespace Cert.KernelIdeal.Proj

open Idealize.ShloMosaic Idealize.ShloMosaic.TcCoe Idealize.ShloMosaic.ValueIdx Cert.KernelIdeal Cert.KernelIdeal.Gen
open Cert.KernelIdeal.Value (reset3 step3)

/-- Column q of column block j, as a column of the whole [*, 512] arrays (the block number is read modulo 2, so
    that the column is in range for every natural j). -/
def col (j : ℕ) (q : Fin 256) : Fin 512 := ⟨256 * (j % 2) + q.val, by have := q.isLt; omega⟩

theorem col_val (j : ℕ) (q : Fin 256) : (col j q).val = 256 * (j % 2) + q.val := rfl

/-- Row p of a [256, 4096] block times column q of a [4096, 256] block. -/
def rowCol (a : Vec Ideal S256x4096 .f32) (b : Vec Ideal S4096x256 .f32) (p q : Fin 256) : EReal :=
  ∑ r : Fin 4096, a (ix2 p r) * b (ix2 r q)

/-- Point n's addend at entry (p, q), over a left array A and a right array W: its tile of the contraction. -/
def tileOf (A : S256x32768.Idx → EReal) (W : S32768x512.Idx → EReal) (n : ℕ) (p q : Fin 256) : EReal :=
  ∑ r : Fin 4096, A (ix2 p (place n r)) * W (ix2 (place n r) (col (n / 8) q))

/-- Entry (0, column q of block j) of a bias row B. -/
def biasOf (B : S1x512.Idx → EReal) (j : ℕ) (q : Fin 256) : EReal := B (ix2 (⟨0, by decide⟩ : Fin 1) (col j q))

variable (m : (ℓ : Loc nD τ sig) → Buf (Elt Ideal) ℓ) (c : Dev nD)

/-- Point n's addend at entry (p, q), over the arrays the region finds. -/
abbrev tile (n : ℕ) (p q : Fin 256) : EReal := tileOf (V m c main_v70) (V m c main_arg6) n p q

/-- The bias entry of column block j at column q, over the array the region finds. -/
abbrev bias (j : ℕ) (q : Fin 256) : EReal := biasOf (V m c main_v71) j q

/-- The accumulating store at entry (p, q): the entry before plus row p times column q of the two blocks. -/
theorem pay2_rowCol (a : Vec Ideal S256x4096 .f32) (b : Vec Ideal S4096x256 .f32) (acc : Vec Ideal S256x256 .f32)
    (p q : Fin 256) : k0_pay2 (F := Ideal) a b acc (ix2 p q) = acc (ix2 p q) + rowCol a b p q :=
  pay2_apply a b acc p q

/-- Row times column of point n's two blocks at entry (p, q) is point n's addend. -/
theorem blocks_tile (n : ℕ) (h : n < cfg0.N) (p q : Fin 256) :
    rowCol (iblk m c 0 ⟨n, h⟩) (iblk m c 1 ⟨n, h⟩) p q = tile m c n p q := by
  have hN : n < 16 := lt_of_lt_of_eq h (show cfg0.N = 16 from N_0)
  unfold rowCol tile tileOf
  refine Finset.sum_congr rfl fun r _ => ?_
  have e : (⟨256 * (n / 8) + q.val, by have := q.isLt; omega⟩ : Fin 512) = col (n / 8) q :=
    Fin.ext (by show 256 * (n / 8) + q.val = 256 * (n / 8 % 2) + q.val; omega)
  have h1 : iblk (F := Ideal) m c 0 ⟨n, h⟩ (ix2 p r) = V m c main_v70 (ix2 p (place n r)) := left_apply m c ⟨n, h⟩ p r
  have h2 : iblk (F := Ideal) m c 1 ⟨n, h⟩ (ix2 r q) = V m c main_arg6 (ix2 (place n r) (col (n / 8) q)) :=
    (right_apply m c ⟨n, h⟩ r q).trans (congrArg (fun x => V m c main_arg6 (ix2 (place n r) x)) e)
  exact congrArg₂ (fun (x y : EReal) => x * y) h1 h2

/-- Point n's bias block at (0, q) is the bias row at column q of block n / 8. -/
theorem block_bias (n : ℕ) (h : n < cfg0.N) (q : Fin 256) :
    iblk (F := Ideal) m c 2 ⟨n, h⟩ (ix2 (⟨0, by decide⟩ : Fin 1) q) = bias m c (n / 8) q := by
  have hN : n < 16 := lt_of_lt_of_eq h (show cfg0.N = 16 from N_0)
  rw [bias_apply m c ⟨n, h⟩ q]
  have e : (⟨256 * (n / 8) + q.val, by have := q.isLt; omega⟩ : Fin 512) = col (n / 8) q :=
    Fin.ext (by show 256 * (n / 8) + q.val = 256 * (n / 8 % 2) + q.val; omega)
  exact congrArg (fun x => V m c main_v71 (ix2 (⟨0, by decide⟩ : Fin 1) x)) e

/-- The first point of a run: zero plus its tile. -/
theorem reset_apply (n : ℕ) (h : n < cfg0.N) (p q : Fin 256) :
    reset3 (F := Ideal) m c n h (ix2 p q) = 0 + tile m c n p q := by
  unfold reset3
  refine (pay2_rowCol (iblk m c 0 ⟨n, h⟩) (iblk m c 1 ⟨n, h⟩) (k0_pay1 (F := Ideal)) p q).trans ?_
  rw [pay1_apply, blocks_tile m c n h p q]

/-- A middle point of a run: what the point before left plus its tile. -/
theorem step_mid (n : ℕ) (h : n < cfg0.N) (h0 : ¬n % 8 = 0) (h7 : ¬n % 8 = 7) (acc : Vec Ideal S256x256 .f32)
    (p q : Fin 256) :
    step3 (F := Ideal) m c n h acc (ix2 p q) = acc (ix2 p q) + tile m c n p q := by
  unfold step3
  rw [if_pos ⟨h0, h7⟩]
  refine (pay2_rowCol (iblk m c 0 ⟨n, h⟩) (iblk m c 1 ⟨n, h⟩) acc p q).trans ?_
  rw [blocks_tile m c n h p q]

/-- The last point of a run: what the point before left plus its tile plus the bias entry. -/
theorem step_last (n : ℕ) (h : n < cfg0.N) (h7 : n % 8 = 7) (acc : Vec Ideal S256x256 .f32) (p q : Fin 256) :
    step3 (F := Ideal) m c n h acc (ix2 p q) = acc (ix2 p q) + tile m c n p q + bias m c (n / 8) q := by
  unfold step3
  rw [if_neg (fun hh => hh.2 h7), if_pos ⟨by omega, h7⟩]
  refine (pay3_apply (k0_pay2 (iblk m c 0 ⟨n, h⟩) (iblk m c 1 ⟨n, h⟩) acc) (iblk m c 2 ⟨n, h⟩) p q).trans ?_
  rw [block_bias m c n h q]
  refine congrArg (· + bias m c (n / 8) q) ?_
  refine (pay2_rowCol (iblk m c 0 ⟨n, h⟩) (iblk m c 1 ⟨n, h⟩) acc p q).trans ?_
  rw [blocks_tile m c n h p q]

end Cert.KernelIdeal.Proj

end
-- ==== Proof.KernelProj.lean ====
/-
  The projection kernel's output array, as one function of the arrays the region finds.

  The output block of column block j is built over the run of eight grid points 8 · j … 8 · j + 7: zeroed and
  given tile 0's products at the first, given one more tile's products at each later point, and the bias row
  at the last. At entry (p, q) the run therefore leaves 0 plus the eight tiles' sums plus the bias entry
  (0, 256 · j + q). The eight tiles are the whole contraction axis, so the eight sums are the one sum over all
  32768 places: entry (p, 256 · j + q) of the product of the two arrays. Every entry (a, b) of the [256, 512]
  output lies in column block b / 256 at (a, b % 256), so the array ends holding the product plus the bias
  row, entry by entry. Only associativity and commutativity of addition and 0 + x = x enter.
-/
import proofs.«178894_j54752243089440_2_alg».proof.Proof.KernelProjSteps

noncomputable section

namespace Cert.KernelIdeal.Proj

open Idealize.ShloMosaic Idealize.ShloMosaic.TcCoe Idealize.ShloMosaic.ValueIdx Cert.KernelIdeal Cert.KernelIdeal.Gen
open Cert.KernelIdeal.Value (reset3 step3)

variable (m : (ℓ : Loc nD τ sig) → Buf (Elt Ideal) ℓ) (c : Dev nD)

/-- The eight tiles of column block j at entry (p, q) sum to entry (p, 256 · j + q) of the product. -/
theorem tiles_eq_prod (j : ℕ) (p q : Fin 256) :
    ∑ s ∈ Finset.range 8, tile m c (8 * j + s) p q
      = Cert.Lib.MatProd.prod (M := 256) (K := 32768) (N := 512) (V m c main_v70) (V m c main_arg6) (ix2 p (col j q)) := by
  rw [Cert.Lib.MatProd.prod_apply]
  refine Eq.trans ?_ (sum_tiles _).symm
  refine Finset.sum_congr rfl fun s hs => ?_
  have hs' : s < 8 := Finset.mem_range.mp hs
  unfold tile tileOf
  refine Finset.sum_congr rfl fun r _ => ?_
  have e1 : place (8 * j + s) r = place s r := Fin.ext (by rw [place_val, place_val]; omega)
  have e2 : (8 * j + s) / 8 = j := by omega
  rw [e1, e2]

/-- What the run of column block j leaves at entry (p, q) of the block: the product's entry plus the bias entry. -/
theorem fold_apply (j : ℕ) (h : 8 * j + 7 < cfg0.N) (p q : Fin 256) :
    Pipeline.accAt (reset3 (F := Ideal) m c) (step3 (F := Ideal) m c) (8 * j) 7 h (ix2 p q)
      = Cert.Lib.MatProd.prod (M := 256) (K := 32768) (N := 512) (V m c main_v70) (V m c main_arg6) (ix2 p (col j q))
        + bias m c j q := by
  have hN : cfg0.N = 16 := N_0
  -- the reset and the six middle points: zero plus seven tiles
  have h6 : Pipeline.accAt (reset3 (F := Ideal) m c) (step3 (F := Ideal) m c) (8 * j) 6 (Nat.lt_of_succ_lt h) (ix2 p q)
      = 0 + ∑ s ∈ Finset.range (6 + 1), tile m c (8 * j + s) p q :=
    Pipeline.accAt_add_apply (ι := S256x256.Idx) (β := EReal) (reset3 (F := Ideal) m c) (step3 (F := Ideal) m c)
      (fun _ => 0) (fun n y => tile m c n (y 0) (y 1)) (8 * j) 6
      (fun hb y => by
        obtain ⟨p', q', rfl⟩ : ∃ (p' q' : Fin 256), y = ix2 p' q' := ⟨y 0, y 1, eq_ix2 y⟩
        exact reset_apply m c (8 * j) hb p' q')
      (fun n hn acc y h1 h2 => by
        obtain ⟨p', q', rfl⟩ : ∃ (p' q' : Fin 256), y = ix2 p' q' := ⟨y 0, y 1, eq_ix2 y⟩
        exact step_mid m c n hn (by omega) (by omega) acc p' q')
      6 le_rfl (Nat.lt_of_succ_lt h) (ix2 p q)
  -- the last point: one more tile, then the bias
  refine (congrFun (Pipeline.accAt_succ (reset3 (F := Ideal) m c) (step3 (F := Ideal) m c) (8 * j) 6 h) (ix2 p q)).trans ?_
  refine (step_last m c (8 * j + (6 + 1)) h (by omega) _ p q).trans ?_
  rw [h6, zero_add, ← Finset.sum_range_succ (fun s => tile m c (8 * j + s) p q) (6 + 1)]
  have e : (8 * j + (6 + 1)) / 8 = j := by omega
  rw [e]
  exact congrArg (· + bias m c j q) (tiles_eq_prod m c j p q)

/-- THE OUTPUT ARRAY: entry by entry the product of the two arrays plus the bias row. -/
theorem G3_eq (m : (ℓ : Loc nD τ sig) → Buf (Elt Ideal) ℓ) (c : Dev nD) :
    Cert.KernelIdeal.Value.G3 (F := Ideal) m c
      = fun i => Cert.Lib.MatProd.prod (M := 256) (K := 32768) (N := 512) (V m c main_v70) (V m c main_arg6) i
                  + V m c main_v71 (ValueIdx.ix2 ⟨0, by decide⟩ (i 1)) := by
  funext i
  obtain ⟨a, b, rfl⟩ : ∃ (a : Fin 256) (b : Fin 512), i = ix2 a b := ⟨i 0, i 1, eq_ix2 i⟩
  have ha : a.val < 256 := a.isLt
  have hb' : b.val < 512 := b.isLt
  have hb : 8 * Value.run3Of (ix2 a b) + 7 < cfg0.N := by
    rw [show cfg0.N = 16 from N_0]
    show 8 * (2 * (a.val / 256 - 0) + 1 * (b.val / 256 - 0)) + 7 < 16
    omega
  have hl : Value.loc3Of (ix2 a b) = ix2 (⟨a.val % 256, Nat.mod_lt _ (by decide)⟩ : Fin 256)
      (⟨b.val % 256, Nat.mod_lt _ (by decide)⟩ : Fin 256) :=
    funext fun d => by match d with | ⟨0, _⟩ => rfl | ⟨1, _⟩ => rfl
  have hp : (⟨a.val % 256, Nat.mod_lt _ (by decide)⟩ : Fin 256) = a :=
    Fin.ext (by show a.val % 256 = a.val; omega)
  have hq : col (Value.run3Of (ix2 a b)) (⟨b.val % 256, Nat.mod_lt _ (by decide)⟩ : Fin 256) = b :=
    Fin.ext (by
      show 256 * ((2 * (a.val / 256 - 0) + 1 * (b.val / 256 - 0)) % 2) + b.val % 256 = b.val
      omega)
  unfold Value.G3
  rw [dif_pos hb, hl, fold_apply m c (Value.run3Of (ix2 a b)) hb]
  unfold bias biasOf
  rw [hp, hq]

end Cert.KernelIdeal.Proj

end
-- ==== Proof.HostK.lean ====
/-
  The arrays the kernel's matrix product is launched on, as structured terms of the program's arguments.

  The kernel's host side sums the edges FIRST: every edge carries its source's row of `x` scaled by the edge's
  weight to its destination, where the rows are summed; only then is the layer's weight matrix applied, and the bias
  added. Two such layers (3 → 3 features, then 3 → 128) with `x ↦ x` for `x ≥ 0` and a tenth of `x` elsewhere
  between them; the `[65536, 128]` result is re-laid as `[256, 32768]`: that is the left operand the matrix-product
  kernel is launched on. Its bias operand is the last bias vector re-laid as one row.
-/
import proofs.«178894_j54752243089440_2_alg».proof.Proof.Gen.KernelIdeal.Frame
import Idealize.ShloMosaic.Lib.StableHlo.Run

noncomputable section

namespace Cert.KernelIdeal.HostT

open Cert.KernelIdeal Cert.KernelIdeal.Gen Idealize.ShloMosaic Idealize.ShloMosaic.TcCoe Idealize.SL.Sem Idealize.ShloMosaic.StableHlo

/-! ## The edge list, the degrees and the edge weights

  The edge array has two rows, sources and destinations, of 1048576 edges; one loop per node (0 … 65535) is appended
  to each. A node's degree is the number of edges ending at it (every update is a one, added at the edge's
  destination word), its weight is the reciprocal square root of the degree where the degree is positive and zero
  elsewhere, and an edge's weight is the product of its two ends' node weights, each read at the end's word wrapped
  by the table's length where it is negative. -/

/-- Row `0` of the edge array (the sources) followed by `0 … 65535`. -/
def srcI (ei : IVec S2x1048576 32) : IVec S1114112 32 :=
  concatenate S1114112 0 [⟨S1048576, (shapeCast _ (extractStridedSlice S1x1048576 ![0, 0] ei slices_S2x1048576_S1x1048576_0_0) shapeCasts_S1x1048576_S1048576)⟩, ⟨S65536, (iotaInDim S65536 32 0)⟩] concatenates_S1048576_S65536_S1114112_d0

/-- Row `1` of the edge array (the destinations) followed by `0 … 65535`. -/
def dstI (ei : IVec S2x1048576 32) : IVec S1114112 32 :=
  concatenate S1114112 0 [⟨S1048576, (shapeCast _ (extractStridedSlice S1x1048576 ![1, 0] ei slices_S2x1048576_S1x1048576_1_0) shapeCasts_S1x1048576_S1048576)⟩, ⟨S65536, (iotaInDim S65536 32 0)⟩] concatenates_S1048576_S65536_S1114112_d0

/-- A negative word moved up by the table's length. -/
def wrap (ix : IVec S1114112 32) : IVec S1114112 32 :=
  select (cmpi .slt ix (broadcastInDim S1114112 ![] bcast_S_S1114112 (constantI S_ 32 0#32))) (addi ix (broadcastInDim S1114112 ![] bcast_S_S1114112 (constantI S_ 32 65536#32))) ix

/-- One word per edge as the one column of an `[edges, 1]` array. -/
def col (ix : IVec S1114112 32) : IVec S1114112x1 32 :=
  broadcastInDim S1114112x1 ![0] bcast_S1114112_S1114112x1_0 ix

variable {F : FTy → Type} [FloatOps F]

/-- The zero vector over the nodes. -/
def zeroN : FVec F S65536 .f32 := broadcastInDim S65536 ![] bcast_S_S65536 (constant (F := F) S_ .f32 0x00000000#32)

/-- A node's degree: the ones added at the edges' destination words. -/
def deg (ei : IVec S2x1048576 32) : FVec F S65536 .f32 :=
  Host.scatterAdd scatter_S65536_S1114112x1_S1114112_n_0_0_1 (zeroN (F := F)) (col (dstI ei)) (broadcastInDim S1114112 ![] bcast_S_S1114112 (constant (F := F) S_ .f32 0x3F800000#32))

/-- A node's weight: `1 / sqrt degree` where the degree is positive, zero elsewhere. -/
def dinv (ei : IVec S2x1048576 32) : FVec F S65536 .f32 :=
  select (cmpf .ogt (deg (F := F) ei) (zeroN (F := F))) (Host.rsqrt (deg (F := F) ei)) (zeroN (F := F))

/-- An edge's weight: the product of its two ends' node weights. -/
def norm (ei : IVec S2x1048576 32) : FVec F S1114112 .f32 :=
  mulf (Host.gather gather_S65536_S1114112x1_S1114112_n_0_n_n_0_1_1 (dinv (F := F) ei) (col (wrap (srcI ei)))) (Host.gather gather_S65536_S1114112x1_S1114112_n_0_n_n_0_1_1 (dinv (F := F) ei) (col (wrap (dstI ei))))

/-- The edge weights as a column. -/
def normCol (ei : IVec S2x1048576 32) : FVec F S1114112x1 .f32 :=
  broadcastInDim S1114112x1 ![0] bcast_S1114112_S1114112x1_0 (norm (F := F) ei)

/-- `x` where `x ≥ 0`, a tenth of `x` elsewhere (the tenth is the binary word the programs print). -/
def leaky (h : FVec F S65536x3 .f32) : FVec F S65536x3 .f32 :=
  select (cmpf .oge h (broadcastInDim S65536x3 ![] bcast_S_S65536x3 (constant (F := F) S_ .f32 0x00000000#32))) h (mulf (broadcastInDim S65536x3 ![] bcast_S_S65536x3 (constant (F := F) S_ .f32 0x3DCCCCCD#32)) h)

/-- A bias vector of three entries repeated over the nodes' rows. -/
def bias3 (b : FVec F S3 .f32) : FVec F S65536x3 .f32 :=
  broadcastInDim S65536x3 ![0, 1] bcast_S1x3_S65536x3_0_1 (broadcastInDim S1x3 ![1] bcast_S3_S1x3_1 b)

/-- A bias vector of 128 entries repeated over the nodes' rows. -/
def bias128 (b : FVec F S128 .f32) : FVec F S65536x128 .f32 :=
  broadcastInDim S65536x128 ![0, 1] bcast_S1x128_S65536x128_0_1 (broadcastInDim S1x128 ![1] bcast_S128_S1x128_1 b)

/-! ## The layers, the edges summed before the weights -/

/-- Every edge's source row of `x`, scaled by the edge's weight, summed at the edge's destination. -/
def agg (ei : IVec S2x1048576 32) (x : FVec F S65536x3 .f32) : FVec F S65536x3 .f32 :=
  Host.scatterAdd scatter_S65536x3_S1114112x1_S1114112x3_1_0_0_1 (broadcastInDim S65536x3 ![] bcast_S_S65536x3 (constant (F := F) S_ .f32 0x00000000#32)) (col (dstI ei)) (mulf (Host.gather gather_S65536x3_S1114112x1_S1114112x3_1_0_n_n_0_1_13 x (col (wrap (srcI ei)))) (broadcastInDim S1114112x3 ![0, 1] bcast_S1114112x1_S1114112x3_0_1 (normCol (F := F) ei)))

/-- Layer one: the summed rows times `W` (3 → 3), plus the bias. -/
def layer1 (ei : IVec S2x1048576 32) (x : FVec F S65536x3 .f32) (W : FVec F S3x3 .f32) (b : FVec F S3 .f32) : FVec F S65536x3 .f32 :=
  addf (Host.dotGeneral dot_S65536x3_S3x3_S65536x3_1_0_0_1_n_n none (agg ei x) W) (bias3 b)

/-- Layer two: the summed rows times `W` (3 → 128), plus the bias. -/
def layer2 (ei : IVec S2x1048576 32) (x : FVec F S65536x3 .f32) (W : FVec F S3x128 .f32) (b : FVec F S128 .f32) : FVec F S65536x128 .f32 :=
  addf (Host.dotGeneral dot_S65536x3_S3x128_S65536x128_1_0_0_1_n_n none (agg ei x) W) (bias128 b)

/-- The node features after both layers. -/
def feats (ei : IVec S2x1048576 32) (x : FVec F S65536x3 .f32) (W1 : FVec F S3x3 .f32) (b1 : FVec F S3 .f32) (W2 : FVec F S3x128 .f32) (b2 : FVec F S128 .f32) : FVec F S65536x128 .f32 :=
  layer2 ei (leaky (layer1 ei x W1 b1)) W2 b2

/-- The features re-laid as `[256, 32768]`. -/
def h2d (ei : IVec S2x1048576 32) (x : FVec F S65536x3 .f32) (W1 : FVec F S3x3 .f32) (b1 : FVec F S3 .f32) (W2 : FVec F S3x128 .f32) (b2 : FVec F S128 .f32) : FVec F S256x32768 .f32 :=
  shapeCast _ (feats ei x W1 b1 W2 b2) shapeCasts_S65536x128_S256x32768

variable (m : (ℓ : Loc nD τ sig) → Buf (Elt F) ℓ)

set_option maxRecDepth 8192 in
set_option maxHeartbeats 4000000 in
/-- The left operand the region finds is `h2d` of the first six arguments. -/
theorem V_v70 (c : Dev nD) :
    (V m c main_v70 : FVec F S256x32768 .f32)
      = h2d (m ((c : Thread nD τ).loc main_arg1)) (m ((c : Thread nD τ).loc main_arg0)) (m ((c : Thread nD τ).loc main_arg2))
          (m ((c : Thread nD τ).loc main_arg3)) (m ((c : Thread nD τ).loc main_arg4)) (m ((c : Thread nD τ).loc main_arg5)) := by
  dsimp only [V]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 4000000 in
/-- The bias operand the region finds is the last bias vector as one row. -/
theorem V_v71 (c : Dev nD) :
    (V m c main_v71 : FVec F S1x512 .f32) = shapeCast _ (m ((c : Thread nD τ).loc main_arg7)) shapeCasts_S512_S1x512 := by
  dsimp only [V]
  simp only [hostOps0, hostOps0_1, hostOps0_2, hostOps0_3, hostOps0_4, List.flatten_cons, List.flatten_nil, List.append_nil,
    List.cons_append, List.nil_append]
  after_results_simp
  rfl

end Cert.KernelIdeal.HostT

end
-- ==== Proof.HostR.lean ====
/-
  The reference program's result as a structured term.

  The reference applies each layer's weight matrix FIRST: `h = x · W`, then every edge carries its source's row of
  `h` scaled by the edge's weight to its destination, where the rows are summed, and the bias is added. Two such
  layers (3 → 3 features, then 3 → 128) with `x ↦ x` for `x ≥ 0` and a tenth of `x` elsewhere between them; the
  `[65536, 128]` result is re-laid as `[256, 32768]`, multiplied by a `[32768, 512]` matrix and a bias row is added.
  The last theorem says that the term the reference's run ends at is this one.
-/
import proofs.«178894_j54752243089440_2_alg».proof.Proof.RefRunP

noncomputable section

namespace Cert.ReferenceIdeal.HostT

open Cert.ReferenceIdeal Cert.ReferenceIdeal.Gen Idealize.ShloMosaic Idealize.ShloMosaic.TcCoe Idealize.SL.Sem Idealize.ShloMosaic.StableHlo

/-! ## The edge list, the degrees and the edge weights

  The edge array has two rows, sources and destinations, of 1048576 edges; one loop per node (0 … 65535) is appended
  to each. A node's degree is the number of edges ending at it (every update is a one, added at the edge's
  destination word), its weight is the reciprocal square root of the degree where the degree is positive and zero
  elsewhere, and an edge's weight is the product of its two ends' node weights, each read at the end's word wrapped
  by the table's length where it is negative. -/

/-- Row `0` of the edge array (the sources) followed by `0 … 65535`. -/
def srcI (ei : IVec S2x1048576 32) : IVec S1114112 32 :=
  concatenate S1114112 0 [⟨S1048576, (shapeCast _ (extractStridedSlice S1x1048576 ![0, 0] ei slices_S2x1048576_S1x1048576_0_0) shapeCasts_S1x1048576_S1048576)⟩, ⟨S65536, (iotaInDim S65536 32 0)⟩] concatenates_S1048576_S65536_S1114112_d0

/-- Row `1` of the edge array (the destinations) followed by `0 … 65535`. -/
def dstI (ei : IVec S2x1048576 32) : IVec S1114112 32 :=
  concatenate S1114112 0 [⟨S1048576, (shapeCast _ (extractStridedSlice S1x1048576 ![1, 0] ei slices_S2x1048576_S1x1048576_1_0) shapeCasts_S1x1048576_S1048576)⟩, ⟨S65536, (iotaInDim S65536 32 0)⟩] concatenates_S1048576_S65536_S1114112_d0

/-- A negative word moved up by the table's length. -/
def wrap (ix : IVec S1114112 32) : IVec S1114112 32 :=
  select (cmpi .slt ix (broadcastInDim S1114112 ![] bcast_S_S1114112 (constantI S_ 32 0#32))) (addi ix (broadcastInDim S1114112 ![] bcast_S_S1114112 (constantI S_ 32 65536#32))) ix

/-- One word per edge as the one column of an `[edges, 1]` array. -/
def col (ix : IVec S1114112 32) : IVec S1114112x1 32 :=
  broadcastInDim S1114112x1 ![0] bcast_S1114112_S1114112x1_0 ix

variable {F : FTy → Type} [FloatOps F]

/-- The zero vector over the nodes. -/
def zeroN : FVec F S65536 .f32 := broadcastInDim S65536 ![] bcast_S_S65536 (constant (F := F) S_ .f32 0x00000000#32)

/-- A node's degree: the ones added at the edges' destination words. -/
def deg (ei : IVec S2x1048576 32) : FVec F S65536 .f32 :=
  Host.scatterAdd scatter_S65536_S1114112x1_S1114112_n_0_0_1 (zeroN (F := F)) (col (dstI ei)) (broadcastInDim S1114112 ![] bcast_S_S1114112 (constant (F := F) S_ .f32 0x3F800000#32))

/-- A node's weight: `1 / sqrt degree` where the degree is positive, zero elsewhere. -/
def dinv (ei : IVec S2x1048576 32) : FVec F S65536 .f32 :=
  select (cmpf .ogt (deg (F := F) ei) (zeroN (F := F))) (Host.rsqrt (deg (F := F) ei)) (zeroN (F := F))

/-- An edge's weight: the product of its two ends' node weights. -/
def norm (ei : IVec S2x1048576 32) : FVec F S1114112 .f32 :=
  mulf (Host.gather gather_S65536_S1114112x1_S1114112_n_0_n_n_0_1_1 (dinv (F := F) ei) (col (wrap (srcI ei)))) (Host.gather gather_S65536_S1114112x1_S1114112_n_0_n_n_0_1_1 (dinv (F := F) ei) (col (wrap (dstI ei))))

/-- The edge weights as a column. -/
def normCol (ei : IVec S2x1048576 32) : FVec F S1114112x1 .f32 :=
  broadcastInDim S1114112x1 ![0] bcast_S1114112_S1114112x1_0 (norm (F := F) ei)

/-- `x` where `x ≥ 0`, a tenth of `x` elsewhere (the tenth is the binary word the programs print). -/
def leaky (h : FVec F S65536x3 .f32) : FVec F S65536x3 .f32 :=
  select (cmpf .oge h (broadcastInDim S65536x3 ![] bcast_S_S65536x3 (constant (F := F) S_ .f32 0x00000000#32))) h (mulf (broadcastInDim S65536x3 ![] bcast_S_S65536x3 (constant (F := F) S_ .f32 0x3DCCCCCD#32)) h)

/-- A bias vector of three entries repeated over the nodes' rows. -/
def bias3 (b : FVec F S3 .f32) : FVec F S65536x3 .f32 :=
  broadcastInDim S65536x3 ![0, 1] bcast_S1x3_S65536x3_0_1 (broadcastInDim S1x3 ![1] bcast_S3_S1x3_1 b)

/-- A bias vector of 128 entries repeated over the nodes' rows. -/
def bias128 (b : FVec F S128 .f32) : FVec F S65536x128 .f32 :=
  broadcastInDim S65536x128 ![0, 1] bcast_S1x128_S65536x128_0_1 (broadcastInDim S1x128 ![1] bcast_S128_S1x128_1 b)

/-! ## The layers, the weights applied before the edges -/

/-- Layer one: `x · W` (3 → 3), gathered along the edges, scaled, summed at the destinations, plus the bias. -/
def layer1 (ei : IVec S2x1048576 32) (x : FVec F S65536x3 .f32) (W : FVec F S3x3 .f32) (b : FVec F S3 .f32) : FVec F S65536x3 .f32 :=
  addf (Host.scatterAdd scatter_S65536x3_S1114112x1_S1114112x3_1_0_0_1 (broadcastInDim S65536x3 ![] bcast_S_S65536x3 (constant (F := F) S_ .f32 0x00000000#32)) (col (dstI ei)) (mulf (Host.gather gather_S65536x3_S1114112x1_S1114112x3_1_0_n_n_0_1_13 (Host.dotGeneral dot_S65536x3_S3x3_S65536x3_1_0_0_1_n_n none x W) (col (wrap (srcI ei)))) (broadcastInDim S1114112x3 ![0, 1] bcast_S1114112x1_S1114112x3_0_1 (normCol (F := F) ei)))) (bias3 b)

/-- Layer two: `x · W` (3 → 128), gathered along the edges, scaled, summed at the destinations, plus the bias. -/
def layer2 (ei : IVec S2x1048576 32) (x : FVec F S65536x3 .f32) (W : FVec F S3x128 .f32) (b : FVec F S128 .f32) : FVec F S65536x128 .f32 :=
  addf (Host.scatterAdd scatter_S65536x128_S1114112x1_S1114112x128_1_0_0_1 (broadcastInDim S65536x128 ![] bcast_S_S65536x128 (constant (F := F) S_ .f32 0x00000000#32)) (col (dstI ei)) (mulf (Host.gather gather_S65536x128_S1114112x1_S1114112x128_1_0_n_n_0_1_1128 (Host.dotGeneral dot_S65536x3_S3x128_S65536x128_1_0_0_1_n_n none x W) (col (wrap (srcI ei)))) (broadcastInDim S1114112x128 ![0, 1] bcast_S1114112x1_S1114112x128_0_1 (normCol (F := F) ei)))) (bias128 b)

/-- The node features after both layers. -/
def feats (ei : IVec S2x1048576 32) (x : FVec F S65536x3 .f32) (W1 : FVec F S3x3 .f32) (b1 : FVec F S3 .f32) (W2 : FVec F S3x128 .f32) (b2 : FVec F S128 .f32) : FVec F S65536x128 .f32 :=
  layer2 ei (leaky (layer1 ei x W1 b1)) W2 b2

/-- The whole result: the features re-laid as `[256, 32768]`, times the last matrix, plus the last bias row. -/
def result (ei : IVec S2x1048576 32) (x : FVec F S65536x3 .f32) (W1 : FVec F S3x3 .f32) (b1 : FVec F S3 .f32) (W2 : FVec F S3x128 .f32) (b2 : FVec F S128 .f32) (W3 : FVec F S32768x512 .f32) (b3 : FVec F S512 .f32) : FVec F S256x512 .f32 :=
  addf (Host.dotGeneral dot_S256x32768_S32768x512_S256x512_1_0_0_1_n_n none (shapeCast _ (feats ei x W1 b1 W2 b2) shapeCasts_S65536x128_S256x32768) W3) (broadcastInDim S256x512 ![0, 1] bcast_S1x512_S256x512_0_1 (broadcastInDim S1x512 ![1] bcast_S512_S1x512_1 b3))

set_option maxRecDepth 8192 in
/-- The term the reference's run ends at is `result` of the eight arguments. -/
theorem res_eq (m : (ℓ : Loc nD τ sig) → Buf (Elt F) ℓ) (c : Dev nD) :
    Cert.ReferenceIdeal.RunP.res_main_v105 m c
      = result (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.RunP.res_main_v105
  rfl

end Cert.ReferenceIdeal.HostT

end
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.LibSegLinear.lean ====
/-
  A linear map commutes with a weighted segment sum — for finite data.

  Over finitely many edges `e` and features `k`, with an indicator `p e` (edge `e` lands in the segment), a row
  `A e k` per edge, an edge weight `w e` and one column `W k` of a matrix:

      ∑_e [p e] (∑_k A e k · W k) · w e  =  ∑_k (∑_e [p e] A e k · w e) · W k.

  Applying the matrix before the gather-scale-scatter or after it gives the same entry. On the extended reals the
  identity needs every `A e k`, `w e`, `W k` to be a real number: it distributes a product over a sum and exchanges
  two sums, which fail at infinities (`seg_linear`; over ℝ it is `seg_linear_real`). Imports only Mathlib.
-/
import Mathlib.Data.EReal.Operations
import Mathlib.Algebra.BigOperators.Ring.Finset
import Mathlib.Algebra.BigOperators.Group.Finset.Sigma
import Mathlib.Tactic.Ring

open scoped BigOperators

namespace Cert.Lib.SegLinear

variable {ι κ : Type*} [Fintype ι] [Fintype κ]

/-- The law over the reals. -/
theorem seg_linear_real (p : ι → Prop) [DecidablePred p] (a : ι → κ → ℝ) (w : ι → ℝ) (W : κ → ℝ) :
    ∑ e, (if p e then (∑ k, a e k * W k) * w e else 0) = ∑ k, (∑ e, if p e then a e k * w e else 0) * W k := by
  simp only [Finset.sum_mul]
  rw [Finset.sum_comm]
  refine Finset.sum_congr rfl fun e _ => ?_
  by_cases h : p e
  · simp only [h, if_true]
    exact Finset.sum_congr rfl fun k _ => by ring
  · simp only [h, if_false, zero_mul, Finset.sum_const_zero]

/-- The inclusion of the reals in the extended reals carries a finite sum to the sum. -/
theorem coe_sum {α : Type*} (s : Finset α) (f : α → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- … and an indicator to the indicator. -/
theorem coe_ite (p : Prop) [Decidable p] (x : ℝ) : ((if p then x else 0 : ℝ) : EReal) = if p then (x : EReal) else 0 := by
  split_ifs <;> simp

/-- THE LAW on the extended reals, for data that are real numbers. -/
theorem seg_linear (p : ι → Prop) [DecidablePred p] (A : ι → κ → EReal) (w : ι → EReal) (W : κ → EReal)
    (hA : ∀ e k, ∃ r : ℝ, A e k = (r : EReal)) (hw : ∀ e, ∃ r : ℝ, w e = (r : EReal))
    (hW : ∀ k, ∃ r : ℝ, W k = (r : EReal)) :
    ∑ e, (if p e then (∑ k, A e k * W k) * w e else 0) = ∑ k, (∑ e, if p e then A e k * w e else 0) * W k := by
  choose a ha using hA
  choose w' hw using hw
  choose W' hW using hW
  have L : ∀ e, (if p e then (∑ k, A e k * W k) * w e else 0)
      = ((if p e then (∑ k, a e k * W' k) * w' e else 0 : ℝ) : EReal) := by
    intro e
    rw [coe_ite, EReal.coe_mul, coe_sum]
    simp only [EReal.coe_mul, ha, hw, hW]
  have R : ∀ k, (∑ e, if p e then A e k * w e else 0) * W k
      = (((∑ e, if p e then a e k * w' e else 0) * W' k : ℝ) : EReal) := by
    intro k
    rw [EReal.coe_mul, coe_sum]
    simp only [coe_ite, EReal.coe_mul, ha, hw, hW]
  simp only [L, R, ← coe_sum]
  exact congrArg _ (seg_linear_real p a w' W')

end Cert.Lib.SegLinear
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«178894_j54752243089440_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibGcnLayer.lean ====
/-
  One graph-convolution layer, the weight matrix applied after the edges or before them.

  Over `N` nodes with `A` features, `E` edges, a weight matrix `W : [A, C]`, edge weights `ν e`, a start word per
  edge for the row it reads (`ρ e`, clamped into the table) and one for the row it is added to:

      after  :  (n, c) ↦ ∑_k (∑_e [e ends at n] x (ρ e, k) · ν e) · W (k, c) + β (n, c)
      before :  (n, c) ↦ ∑_e [e ends at n] (∑_k x (ρ e, k) · W (k, c)) · ν e + β (n, c)

  The two agree when `x`, `W` and `ν` are real numbers (the law distributes a product over a sum and exchanges two
  sums, which fail at infinities), and the value is then a real number when `β` is. The gather, scatter and
  contraction records enter through their dimension numbers only, so the lemma serves both layers of both programs.
-/
import Idealize.ShloMosaic.PureOps.Ideal.Laws
import Idealize.ShloMosaic.Lib.ValueIdx
import proofs.«178894_j54752243089440_2_alg».proof.Proof.LibRowGatherScatter
import proofs.«178894_j54752243089440_2_alg».proof.Proof.LibSegLinear
import proofs.«178894_j54752243089440_2_alg».proof.Proof.LibMatProd
import proofs.«178894_j54752243089440_2_alg».proof.Proof.LibDenseLayer

noncomputable section

open scoped BigOperators

namespace Cert.Gcn

open Idealize.ShloMosaic Idealize.ShloMosaic.ValueIdx
open Cert.Lib.RowGatherScatter (startAt rowOf gather_rows_apply hostScatterAdd_rows_apply)
open Cert.Lib.MatProd (prod prod_apply)

/-! ## Real numbers among the extended reals -/

/-- An extended real that is a real number. -/
def IsR (x : EReal) : Prop := ∃ r : ℝ, x = (r : EReal)

theorem isR_zero : IsR 0 := ⟨0, EReal.coe_zero.symm⟩
theorem isR_coe (r : ℝ) : IsR (r : EReal) := ⟨r, rfl⟩
theorem isR_add {x y : EReal} : IsR x → IsR y → IsR (x + y)
  | ⟨a, ha⟩, ⟨b, hb⟩ => ⟨a + b, by rw [ha, hb, EReal.coe_add]⟩
theorem isR_mul {x y : EReal} : IsR x → IsR y → IsR (x * y)
  | ⟨a, ha⟩, ⟨b, hb⟩ => ⟨a * b, by rw [ha, hb, EReal.coe_mul]⟩
theorem isR_ite {p : Prop} [Decidable p] {x y : EReal} (hx : IsR x) (hy : IsR y) : IsR (if p then x else y) := by
  split_ifs <;> assumption
theorem isR_sum {ι : Type*} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact isR_add (h i (Finset.mem_insert_self _ _)) (ih fun j hj => h j (Finset.mem_insert_of_mem hj))

/-! ## Real numbers through the operations

  Each over ANY shape, and phrased with the operation as a program prints it, so that a use at a program's literal
  extents matches by the operation's name and nothing is unfolded there. -/

section Ops

variable {s si su : Shape}

/-- A scatter-add of real updates into a real table: each entry is the table's plus a sum of updates. -/
theorem scatterAdd_isR (d : ScatterDims s si su) {w : ℕ} (x : FVec Ideal s .f32) (idx : IVec si w) (upd : FVec Ideal su .f32)
    (hx : ∀ i, IsR (x i)) (hu : ∀ j, IsR (upd j)) (i : s.Idx) : IsR (Host.scatterAdd d x idx upd i) := by
  show IsR (Ideal.hostScatterAdd d x idx upd i)
  unfold Ideal.hostScatterAdd
  exact isR_add (hx i) (isR_sum _ _ fun j _ => hu j)

/-- A gather reads the table at some index. -/
theorem gather_isR {t : Shape} (g : GatherDims s si t) {w : ℕ} (x : FVec Ideal s .f32) (idx : IVec si w)
    (hx : ∀ i, IsR (x i)) (j : t.Idx) : IsR (Host.gather g x idx j) := hx _

theorem mulf_isR (a b : FVec Ideal s .f32) (ha : ∀ i, IsR (a i)) (hb : ∀ i, IsR (b i)) (i : s.Idx) : IsR (mulf a b i) :=
  isR_mul (ha i) (hb i)

theorem addf_isR (a b : FVec Ideal s .f32) (ha : ∀ i, IsR (a i)) (hb : ∀ i, IsR (b i)) (i : s.Idx) : IsR (addf a b i) :=
  isR_add (ha i) (hb i)

/-- The reciprocal square root of a positive real number is a real number. -/
theorem rsqrt_pos_isR (r : ℝ) (h : 0 < r) : IsR (Ideal.rsqrt (r : EReal)) := by
  have e : Ideal.rsqrt (r : EReal) = if r < 0 then ⊥ else if r = 0 then ⊤ else (((Real.sqrt r)⁻¹ : ℝ) : EReal) := rfl
  rw [e, if_neg (not_lt.mpr h.le), if_neg h.ne']
  exact isR_coe _

/-- `1 / sqrt d` where `d > 0`, zero elsewhere, of real `d`: the guard keeps the reciprocal square root off zero,
    where it is infinite. -/
theorem guarded_rsqrt_isR (d z : FVec Ideal s .f32) (hd : ∀ i, IsR (d i)) (hz : ∀ i, z i = 0) (i : s.Idx) :
    IsR (select (cmpf .ogt d z) (Host.rsqrt d) z i) := by
  obtain ⟨r, hr⟩ := hd i
  show IsR (Scalar.select (Ideal.cmp .ogt (d i) (z i)) (Ideal.rsqrt (d i)) (z i))
  rw [hr, hz]
  unfold Scalar.select
  split_ifs with hc
  · have hpos : (0 : EReal) < (r : EReal) := by
      by_contra hn
      have h0 : Ideal.cmp .ogt (r : EReal) 0 = 0 := by simp [Ideal.cmp, hn]
      rw [h0] at hc
      exact absurd hc (by decide)
    exact rsqrt_pos_isR r (EReal.coe_pos.mp hpos)
  · exact isR_zero

/-- `h` where `h ≥ 0`, `t · h` elsewhere, of real `h` and `t`. -/
theorem slope_isR (h z t : FVec Ideal s .f32) (hh : ∀ i, IsR (h i)) (ht : ∀ i, IsR (t i)) (i : s.Idx) :
    IsR (select (cmpf .oge h z) h (mulf t h) i) := by
  show IsR (Scalar.select (Ideal.cmp .oge (h i) (z i)) (h i) (t i * h i))
  unfold Scalar.select
  split_ifs
  · exact hh i
  · exact isR_mul (ht i) (hh i)

/-- A real bias vector repeated over the rows is real everywhere. -/
theorem bias_isR {M N : ℕ} (hN : N ≠ 1) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (hb : ∀ i, IsR (b i)) (i) :
    IsR (broadcastInDim ⟨2, ![M, N]⟩ ![0, 1] h2 (broadcastInDim ⟨2, ![1, N]⟩ ![1] h1 b) i) := by
  obtain ⟨r, k, rfl⟩ : ∃ (r : Fin M) (k : Fin N), i = ix2 r k := ⟨i 0, i 1, eq_ix2 i⟩
  rw [Cert.Lib.DenseLayer.bias_apply hN]
  exact hb _

end Ops

/-! ## The records' dimension numbers -/

/-- A gather of whole rows of an `[N, C]` table, one start word per result row. -/
structure RowGather {N E C : ℕ} (g : GatherDims ⟨2, ![N, C]⟩ ⟨2, ![E, 1]⟩ ⟨2, ![E, C]⟩) : Prop where
  ho : g.offsetDims = [1]
  hc : g.collapsedSliceDims = [0]
  hob : g.operandBatchingDims = []
  hsb : g.startIndicesBatchingDims = []
  hm : g.startIndexMap = [0]
  hv : g.indexVectorDim = 1
  hs : g.sliceSizes = ![1, C]

/-- A scatter of whole rows into an `[N, C]` table, one start word per update row. -/
structure RowScatter {N E C : ℕ} (d : ScatterDims ⟨2, ![N, C]⟩ ⟨2, ![E, 1]⟩ ⟨2, ![E, C]⟩) : Prop where
  h1 : d.updateWindowDims = [1]
  h2 : d.insertedWindowDims = [0]
  h3 : d.scatterDimsToOperandDims = [0]
  h4 : d.indexVectorDim = 1

variable {N E A C : ℕ}

/-! ## The layer -/

section Layer

variable (gA : GatherDims ⟨2, ![N, A]⟩ ⟨2, ![E, 1]⟩ ⟨2, ![E, A]⟩) (gC : GatherDims ⟨2, ![N, C]⟩ ⟨2, ![E, 1]⟩ ⟨2, ![E, C]⟩)
  (sA : ScatterDims ⟨2, ![N, A]⟩ ⟨2, ![E, 1]⟩ ⟨2, ![E, A]⟩) (sC : ScatterDims ⟨2, ![N, C]⟩ ⟨2, ![E, 1]⟩ ⟨2, ![E, C]⟩)
  (dK : DotDims ⟨2, ![N, A]⟩ ⟨2, ![A, C]⟩ ⟨2, ![N, C]⟩)

/-- The weights applied AFTER the edges are summed. -/
def after {w : ℕ} (idxS idxD : IVec ⟨2, ![E, 1]⟩ w) (x zA : FVec Ideal ⟨2, ![N, A]⟩ .f32) (nbA : FVec Ideal ⟨2, ![E, A]⟩ .f32)
    (W : FVec Ideal ⟨2, ![A, C]⟩ .f32) (bb : FVec Ideal ⟨2, ![N, C]⟩ .f32) : FVec Ideal ⟨2, ![N, C]⟩ .f32 :=
  addf (Host.dotGeneral dK none (Host.scatterAdd sA zA idxD (mulf (Host.gather gA x idxS) nbA)) W) bb

/-- The weights applied BEFORE the edges are summed. -/
def before {w : ℕ} (idxS idxD : IVec ⟨2, ![E, 1]⟩ w) (x : FVec Ideal ⟨2, ![N, A]⟩ .f32) (zC : FVec Ideal ⟨2, ![N, C]⟩ .f32)
    (nbC : FVec Ideal ⟨2, ![E, C]⟩ .f32) (W : FVec Ideal ⟨2, ![A, C]⟩ .f32) (bb : FVec Ideal ⟨2, ![N, C]⟩ .f32) :
    FVec Ideal ⟨2, ![N, C]⟩ .f32 :=
  addf (Host.scatterAdd sC zC idxD (mulf (Host.gather gC (Host.dotGeneral dK none x W) idxS) nbC)) bb

variable (hN : 0 < N) (hgA : RowGather gA) (hgC : RowGather gC) (hsA : RowScatter sA) (hsC : RowScatter sC)
  (hdot : ∀ (l : FVec Ideal ⟨2, ![N, A]⟩ .f32) (r : FVec Ideal ⟨2, ![A, C]⟩ .f32), Host.dotGeneral dK none l r = prod l r)
  {w : ℕ} (idxS idxD : IVec ⟨2, ![E, 1]⟩ w)
  (x zA : FVec Ideal ⟨2, ![N, A]⟩ .f32) (zC : FVec Ideal ⟨2, ![N, C]⟩ .f32)
  (nbA : FVec Ideal ⟨2, ![E, A]⟩ .f32) (nbC : FVec Ideal ⟨2, ![E, C]⟩ .f32)
  (W : FVec Ideal ⟨2, ![A, C]⟩ .f32) (bb : FVec Ideal ⟨2, ![N, C]⟩ .f32) (ν : Fin E → EReal)
  (hzA : ∀ i, zA i = 0) (hzC : ∀ i, zC i = 0)
  (hnA : ∀ e k, nbA (ix2 e k) = ν e) (hnC : ∀ e c, nbC (ix2 e c) = ν e)

include hN hgA hsA hdot hzA hnA in
/-- `after` at `(n, c)`. -/
theorem after_apply (n : Fin N) (c : Fin C) :
    after gA sA dK idxS idxD x zA nbA W bb (ix2 n c)
      = (∑ k : Fin A, (∑ e : Fin E, if (idxD (startAt e)).toInt = (n.val : ℤ) then x (ix2 (rowOf hN idxS e) k) * ν e else 0)
            * W (ix2 k c)) + bb (ix2 n c) := by
  have hU : ∀ (e : Fin E) (k : Fin A), mulf (Host.gather gA x idxS) nbA (ix2 e k) = x (ix2 (rowOf hN idxS e) k) * ν e :=
    fun e k => by
      rw [mulf_apply, gather_rows_apply gA hN hgA.ho hgA.hc hgA.hob hgA.hsb hgA.hm hgA.hv hgA.hs, hnA]
  unfold after
  rw [addf_apply, hdot, prod_apply]
  refine congrArg (· + bb (ix2 n c)) (Finset.sum_congr rfl fun k _ => congrArg (· * W (ix2 k c)) ?_)
  show Ideal.hostScatterAdd sA zA idxD _ (ix2 n k) = _
  rw [hostScatterAdd_rows_apply sA hsA.h1 hsA.h2 hsA.h3 hsA.h4, hzA, zero_add]
  exact Finset.sum_congr rfl fun e _ => by rw [hU]

include hN hgC hsC hdot hzC hnC in
/-- `before` at `(n, c)`. -/
theorem before_apply (n : Fin N) (c : Fin C) :
    before gC sC dK idxS idxD x zC nbC W bb (ix2 n c)
      = (∑ e : Fin E, if (idxD (startAt e)).toInt = (n.val : ℤ) then (∑ k : Fin A, x (ix2 (rowOf hN idxS e) k) * W (ix2 k c)) * ν e else 0)
          + bb (ix2 n c) := by
  have hU : ∀ (e : Fin E), mulf (Host.gather gC (Host.dotGeneral dK none x W) idxS) nbC (ix2 e c)
      = (∑ k : Fin A, x (ix2 (rowOf hN idxS e) k) * W (ix2 k c)) * ν e := fun e => by
    rw [mulf_apply, gather_rows_apply gC hN hgC.ho hgC.hc hgC.hob hgC.hsb hgC.hm hgC.hv hgC.hs, hnC, hdot, prod_apply]
  unfold before
  rw [addf_apply]
  refine congrArg (· + bb (ix2 n c)) ?_
  show Ideal.hostScatterAdd sC zC idxD _ (ix2 n c) = _
  rw [hostScatterAdd_rows_apply sC hsC.h1 hsC.h2 hsC.h3 hsC.h4, hzC, zero_add]
  exact Finset.sum_congr rfl fun e _ => by rw [hU]

include hN hgA hgC hsA hsC hdot hzA hzC hnA hnC in
/-- THE TWO ARRANGEMENTS AGREE for real data. -/
theorem after_eq_before (hx : ∀ i, IsR (x i)) (hW : ∀ i, IsR (W i)) (hν : ∀ e, IsR (ν e)) :
    after gA sA dK idxS idxD x zA nbA W bb = before gC sC dK idxS idxD x zC nbC W bb := by
  funext i
  obtain ⟨n, c, rfl⟩ : ∃ (n : Fin N) (c : Fin C), i = ix2 n c := ⟨i 0, i 1, eq_ix2 i⟩
  rw [after_apply gA sA dK hN hgA hsA hdot idxS idxD x zA nbA W bb ν hzA hnA,
    before_apply gC sC dK hN hgC hsC hdot idxS idxD x zC nbC W bb ν hzC hnC]
  exact congrArg (· + bb (ix2 n c))
    (Cert.Lib.SegLinear.seg_linear (fun e : Fin E => (idxD (startAt e)).toInt = (n.val : ℤ))
      (fun e k => x (ix2 (rowOf hN idxS e) k)) ν (fun k => W (ix2 k c)) (fun e k => hx _) hν (fun k => hW _)).symm

include hN hgA hsA hdot hzA hnA in
/-- … and the value is a real number when the bias is. -/
theorem after_isR (hx : ∀ i, IsR (x i)) (hW : ∀ i, IsR (W i)) (hν : ∀ e, IsR (ν e)) (hb : ∀ i, IsR (bb i)) (i) :
    IsR (after gA sA dK idxS idxD x zA nbA W bb i) := by
  obtain ⟨n, c, rfl⟩ : ∃ (n : Fin N) (c : Fin C), i = ix2 n c := ⟨i 0, i 1, eq_ix2 i⟩
  rw [after_apply gA sA dK hN hgA hsA hdot idxS idxD x zA nbA W bb ν hzA hnA]
  exact isR_add (isR_sum _ _ fun k _ => isR_mul (isR_sum _ _ fun e _ => isR_ite (isR_mul (hx _) (hν e)) isR_zero) (hW _)) (hb _)

end Layer

end Cert.Gcn

end
-- ==== Proof.LibColBroadcast.lean ====
/-
  A vector spread over the columns of a matrix, as jax prints `v[:, None]` meeting an `[a, b]` array.

  The host places a vector `[a]` as the one column of `[a, 1]` and repeats that column over `b` columns (two
  `broadcast_in_dim`s). Read at `(r, c)` the result is the vector at `r`, whatever the column. A scalar spread over
  a whole array reads the scalar at every index. Imports only the Idealize library.
-/
import Idealize.ShloMosaic.Lib.Pipeline.Value
import Idealize.ShloMosaic.Lib.ValueIdx

noncomputable section

namespace Cert.Lib.ColBroadcast

open Idealize.ShloMosaic Idealize.ShloMosaic.ValueIdx

/-- A vector `[a]` placed as the one column of `[a, 1]` and that column repeated over `b` columns reads, at
    `(r, c)`, the vector at `r` (for `a ≠ 1`: the library's lemma asks whether the axis is a unit one). -/
theorem col_apply {α : Type} {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (c : Fin b) :
    broadcastInDim ⟨2, ![a, b]⟩ ![0, 1] h2 (broadcastInDim ⟨2, ![a, 1]⟩ ![0] h1 x) (ix2 r c) = x (ix1 r) :=
  (broadcastInDim_apply ![0, 1] h2 _ (ix2 r c) (ix2 r (⟨0, Nat.one_pos⟩ : Fin 1)) (fun d => match d with
      | ⟨0, _⟩ => by show r.val = if a = 1 then 0 else r.val; rw [if_neg ha]
      | ⟨1, _⟩ => by show (0 : ℕ) = if (1 : ℕ) = 1 then 0 else c.val; rw [if_pos rfl])).trans
    (broadcastInDim_apply ![0] h1 x (ix2 r (⟨0, Nat.one_pos⟩ : Fin 1)) (ix1 r) (fun d => match d with
      | ⟨0, _⟩ => by show r.val = if a = 1 then 0 else r.val; rw [if_neg ha]))

/-- A scalar spread over an array reads the scalar at every index. -/
theorem scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun d => d.elim0)

end Cert.Lib.ColBroadcast

end
-- ==== Proof.HostEq.lean ====
/-
  The two programs compute the same node features.

  Both programs derive the same edge list, degrees and edge weights from the edge array; they differ in each
  graph-convolution layer, where the kernel's host side sums the edges before applying the weight matrix and the
  reference applies the matrix first. For real data the two arrangements agree (`Cert.Gcn.after_eq_before`). The data are
  real: the node features, weight matrices and the first bias by assumption; a degree is a sum of ones over a set of
  edges, so a real number, and a node weight is `1 / sqrt` of a POSITIVE real degree or zero, so a real number; an
  edge weight is a product of two of them; the first layer's value is then a real number, and so is what the
  rectifier-with-slope makes of it (the value itself, or a tenth of it — the tenth being a finite binary word).
  Every step at the programs' own extents is an unfolding of one name followed by a lemma stated over any shape.
-/
import proofs.«178894_j54752243089440_2_alg».proof.Proof.HostK
import proofs.«178894_j54752243089440_2_alg».proof.Proof.HostR
import proofs.«178894_j54752243089440_2_alg».proof.Proof.LibGcnLayer
import proofs.«178894_j54752243089440_2_alg».proof.Proof.LibColBroadcast

noncomputable section

namespace Cert.Bridge

open Idealize.ShloMosaic Idealize.ShloMosaic.ValueIdx Cert.Gcn
open Cert.Lib.ColBroadcast (col_apply scalar_apply)
open Cert.Lib.MatProd (prod dotGeneral_eq_prod)

/-! ## Constants -/

/-- The word of the float one is a real number… -/
theorem one_isR : IsR (Ideal.ofBits .f32 0x3F800000#32) := by
  unfold Ideal.ofBits Ideal.ieee
  simp
  exact ⟨_, rfl⟩

/-- … and so is the word nearest a tenth. -/
theorem tenth_isR : IsR (Ideal.ofBits .f32 0x3DCCCCCD#32) := by
  unfold Ideal.ofBits Ideal.ieee
  simp
  exact ⟨_, rfl⟩

/-- A float word spread over an array reads that word's value at every index. -/
theorem splat_apply {t : Shape} (h : (⟨0, ![]⟩ : Shape).BroadcastsInDim t ![]) (w : BitVec 32) (j : t.Idx) :
    broadcastInDim t ![] h (constant (F := Ideal) ⟨0, ![]⟩ .f32 w) j = Ideal.ofBits .f32 w :=
  scalar_apply _ h j

/-- The zero word spread over an array is zero everywhere. -/
theorem splat_zero {t : Shape} (h : (⟨0, ![]⟩ : Shape).BroadcastsInDim t ![]) (j : t.Idx) :
    broadcastInDim t ![] h (constant (F := Ideal) ⟨0, ![]⟩ .f32 0x00000000#32) j = 0 :=
  (splat_apply h _ j).trans Ideal.ofBits_zero_f32

/-- A real word spread over an array is real everywhere. -/
theorem splat_isR {t : Shape} (h : (⟨0, ![]⟩ : Shape).BroadcastsInDim t ![]) (w : BitVec 32) (hw : IsR (Ideal.ofBits .f32 w))
    (j : t.Idx) : IsR (broadcastInDim t ![] h (constant (F := Ideal) ⟨0, ![]⟩ .f32 w) j) := by
  rw [splat_apply]; exact hw

/-! ## The edge weights are real numbers -/

section Weights

variable (ei : IVec Cert.KernelIdeal.S2x1048576 32)

theorem zeroN_apply (i) : Cert.KernelIdeal.HostT.zeroN (F := Ideal) i = 0 := splat_zero _ i

/-- A degree is zero plus ones over a set of edges. -/
theorem deg_isR (i) : IsR (Cert.KernelIdeal.HostT.deg (F := Ideal) ei i) := by
  unfold Cert.KernelIdeal.HostT.deg
  exact scatterAdd_isR _ _ _ _ (fun i => by rw [zeroN_apply]; exact isR_zero) (fun j => splat_isR _ _ one_isR j) i

/-- A node weight: the reciprocal square root where the degree is positive, zero elsewhere. -/
theorem dinv_isR (i) : IsR (Cert.KernelIdeal.HostT.dinv (F := Ideal) ei i) := by
  unfold Cert.KernelIdeal.HostT.dinv
  exact guarded_rsqrt_isR _ _ (deg_isR ei) zeroN_apply i

/-- An edge weight: the product of the node weights read at its two ends. -/
theorem norm_isR (i) : IsR (Cert.KernelIdeal.HostT.norm (F := Ideal) ei i) := by
  unfold Cert.KernelIdeal.HostT.norm
  exact mulf_isR _ _ (gather_isR _ _ _ (dinv_isR ei)) (gather_isR _ _ _ (dinv_isR ei)) i

end Weights

/-! ## The records -/

theorem hN : 0 < 65536 := by norm_num

theorem gK3 : RowGather Cert.KernelIdeal.gather_S65536x3_S1114112x1_S1114112x3_1_0_n_n_0_1_13 := ⟨rfl, rfl, rfl, rfl, rfl, rfl, rfl⟩
theorem gR3 : RowGather Cert.ReferenceIdeal.gather_S65536x3_S1114112x1_S1114112x3_1_0_n_n_0_1_13 := ⟨rfl, rfl, rfl, rfl, rfl, rfl, rfl⟩
theorem gR128 : RowGather Cert.ReferenceIdeal.gather_S65536x128_S1114112x1_S1114112x128_1_0_n_n_0_1_1128 := ⟨rfl, rfl, rfl, rfl, rfl, rfl, rfl⟩
theorem sK3 : RowScatter Cert.KernelIdeal.scatter_S65536x3_S1114112x1_S1114112x3_1_0_0_1 := ⟨rfl, rfl, rfl, rfl⟩
theorem sR3 : RowScatter Cert.ReferenceIdeal.scatter_S65536x3_S1114112x1_S1114112x3_1_0_0_1 := ⟨rfl, rfl, rfl, rfl⟩
theorem sR128 : RowScatter Cert.ReferenceIdeal.scatter_S65536x128_S1114112x1_S1114112x128_1_0_0_1 := ⟨rfl, rfl, rfl, rfl⟩

/-- The first layer's contraction is rows times columns. -/
theorem dot33 (l : FVec Ideal ⟨2, ![65536, 3]⟩ .f32) (r : FVec Ideal ⟨2, ![3, 3]⟩ .f32) :
    Host.dotGeneral Cert.KernelIdeal.dot_S65536x3_S3x3_S65536x3_1_0_0_1_n_n none l r = prod l r :=
  dotGeneral_eq_prod _ rfl rfl (fun _ _ => rfl) (fun _ _ => rfl) (fun _ _ => rfl) (fun _ _ => rfl) none l r

/-- The second layer's contraction is rows times columns. -/
theorem dot3128 (l : FVec Ideal ⟨2, ![65536, 3]⟩ .f32) (r : FVec Ideal ⟨2, ![3, 128]⟩ .f32) :
    Host.dotGeneral Cert.KernelIdeal.dot_S65536x3_S3x128_S65536x128_1_0_0_1_n_n none l r = prod l r :=
  dotGeneral_eq_prod _ rfl rfl (fun _ _ => rfl) (fun _ _ => rfl) (fun _ _ => rfl) (fun _ _ => rfl) none l r

/-! ## The layers -/

section Layers

variable (ei : IVec Cert.KernelIdeal.S2x1048576 32)

/-- The edges' source words, wrapped, as a column. -/
abbrev srcW : IVec Cert.KernelIdeal.S1114112x1 32 := Cert.KernelIdeal.HostT.col (Cert.KernelIdeal.HostT.wrap (Cert.KernelIdeal.HostT.srcI ei))
/-- The edges' destination words as a column. -/
abbrev dstC : IVec Cert.KernelIdeal.S1114112x1 32 := Cert.KernelIdeal.HostT.col (Cert.KernelIdeal.HostT.dstI ei)
/-- The kernel side's zero table of three columns. -/
abbrev z3K : FVec Ideal Cert.KernelIdeal.S65536x3 .f32 := broadcastInDim Cert.KernelIdeal.S65536x3 ![] Cert.KernelIdeal.Facts₀.bcast_S_S65536x3 (constant (F := Ideal) Cert.KernelIdeal.S_ .f32 0x00000000#32)
/-- The reference's zero table of three columns. -/
abbrev z3R : FVec Ideal Cert.ReferenceIdeal.S65536x3 .f32 := broadcastInDim Cert.ReferenceIdeal.S65536x3 ![] Cert.ReferenceIdeal.Facts₀.bcast_S_S65536x3 (constant (F := Ideal) Cert.ReferenceIdeal.S_ .f32 0x00000000#32)
/-- The reference's zero table of 128 columns. -/
abbrev z128R : FVec Ideal Cert.ReferenceIdeal.S65536x128 .f32 := broadcastInDim Cert.ReferenceIdeal.S65536x128 ![] Cert.ReferenceIdeal.Facts₀.bcast_S_S65536x128 (constant (F := Ideal) Cert.ReferenceIdeal.S_ .f32 0x00000000#32)
/-- The edge weights over three columns, kernel side. -/
abbrev nb3K : FVec Ideal Cert.KernelIdeal.S1114112x3 .f32 := broadcastInDim Cert.KernelIdeal.S1114112x3 ![0, 1] Cert.KernelIdeal.Facts₀.bcast_S1114112x1_S1114112x3_0_1 (Cert.KernelIdeal.HostT.normCol (F := Ideal) ei)
/-- The edge weights over three columns, reference. -/
abbrev nb3R : FVec Ideal Cert.ReferenceIdeal.S1114112x3 .f32 := broadcastInDim Cert.ReferenceIdeal.S1114112x3 ![0, 1] Cert.ReferenceIdeal.Facts₀.bcast_S1114112x1_S1114112x3_0_1 (Cert.ReferenceIdeal.HostT.normCol (F := Ideal) ei)
/-- The edge weights over 128 columns, reference. -/
abbrev nb128R : FVec Ideal Cert.ReferenceIdeal.S1114112x128 .f32 := broadcastInDim Cert.ReferenceIdeal.S1114112x128 ![0, 1] Cert.ReferenceIdeal.Facts₀.bcast_S1114112x1_S1114112x128_0_1 (Cert.ReferenceIdeal.HostT.normCol (F := Ideal) ei)

/-- An edge's weight. -/
abbrev nu (e : Fin 1114112) : EReal := Cert.KernelIdeal.HostT.norm (F := Ideal) ei (ix1 e)

theorem nb3K_apply (e : Fin 1114112) (k : Fin 3) : nb3K ei (ix2 e k) = nu ei e := by
  unfold nb3K Cert.KernelIdeal.HostT.normCol
  exact col_apply (by norm_num) _ _ _ e k

/-- The two programs' edge weights are one term. -/
theorem normR_eq : Cert.ReferenceIdeal.HostT.norm (F := Ideal) ei = Cert.KernelIdeal.HostT.norm (F := Ideal) ei := rfl

theorem nb3R_apply (e : Fin 1114112) (k : Fin 3) : nb3R ei (ix2 e k) = nu ei e := by
  unfold nb3R Cert.ReferenceIdeal.HostT.normCol
  rw [normR_eq]
  exact col_apply (by norm_num) _ _ _ e k

theorem nb128R_apply (e : Fin 1114112) (k : Fin 128) : nb128R ei (ix2 e k) = nu ei e := by
  unfold nb128R Cert.ReferenceIdeal.HostT.normCol
  rw [normR_eq]
  exact col_apply (by norm_num) _ _ _ e k

variable (x : FVec Ideal Cert.KernelIdeal.S65536x3 .f32)

/-- The kernel side's layer one is the edges-first arrangement. -/
theorem layer1K_eq (W : FVec Ideal Cert.KernelIdeal.S3x3 .f32) (b : FVec Ideal Cert.KernelIdeal.S3 .f32) :
    Cert.KernelIdeal.HostT.layer1 (F := Ideal) ei x W b
      = after Cert.KernelIdeal.gather_S65536x3_S1114112x1_S1114112x3_1_0_n_n_0_1_13 Cert.KernelIdeal.scatter_S65536x3_S1114112x1_S1114112x3_1_0_0_1
          Cert.KernelIdeal.dot_S65536x3_S3x3_S65536x3_1_0_0_1_n_n (srcW ei) (dstC ei) x z3K (nb3K ei) W (Cert.KernelIdeal.HostT.bias3 b) := rfl

/-- The reference's layer one is the weights-first arrangement. -/
theorem layer1R_eq (W : FVec Ideal Cert.KernelIdeal.S3x3 .f32) (b : FVec Ideal Cert.KernelIdeal.S3 .f32) :
    Cert.ReferenceIdeal.HostT.layer1 (F := Ideal) ei x W b
      = before Cert.ReferenceIdeal.gather_S65536x3_S1114112x1_S1114112x3_1_0_n_n_0_1_13 Cert.ReferenceIdeal.scatter_S65536x3_S1114112x1_S1114112x3_1_0_0_1
          Cert.KernelIdeal.dot_S65536x3_S3x3_S65536x3_1_0_0_1_n_n (srcW ei) (dstC ei) x z3R (nb3R ei) W (Cert.KernelIdeal.HostT.bias3 b) := rfl

/-- The kernel side's layer two is the edges-first arrangement. -/
theorem layer2K_eq (W : FVec Ideal Cert.KernelIdeal.S3x128 .f32) (b : FVec Ideal Cert.KernelIdeal.S128 .f32) :
    Cert.KernelIdeal.HostT.layer2 (F := Ideal) ei x W b
      = after Cert.KernelIdeal.gather_S65536x3_S1114112x1_S1114112x3_1_0_n_n_0_1_13 Cert.KernelIdeal.scatter_S65536x3_S1114112x1_S1114112x3_1_0_0_1
          Cert.KernelIdeal.dot_S65536x3_S3x128_S65536x128_1_0_0_1_n_n (srcW ei) (dstC ei) x z3K (nb3K ei) W (Cert.KernelIdeal.HostT.bias128 b) := rfl

/-- The reference's layer two is the weights-first arrangement. -/
theorem layer2R_eq (W : FVec Ideal Cert.KernelIdeal.S3x128 .f32) (b : FVec Ideal Cert.KernelIdeal.S128 .f32) :
    Cert.ReferenceIdeal.HostT.layer2 (F := Ideal) ei x W b
      = before Cert.ReferenceIdeal.gather_S65536x128_S1114112x1_S1114112x128_1_0_n_n_0_1_1128 Cert.ReferenceIdeal.scatter_S65536x128_S1114112x1_S1114112x128_1_0_0_1
          Cert.KernelIdeal.dot_S65536x3_S3x128_S65536x128_1_0_0_1_n_n (srcW ei) (dstC ei) x z128R (nb128R ei) W (Cert.KernelIdeal.HostT.bias128 b) := rfl

variable (hx : ∀ i, IsR (x i))
include hx

/-- Layer one: the two programs agree… -/
theorem layer1_eq (W : FVec Ideal Cert.KernelIdeal.S3x3 .f32) (b : FVec Ideal Cert.KernelIdeal.S3 .f32) (hW : ∀ i, IsR (W i)) :
    Cert.KernelIdeal.HostT.layer1 (F := Ideal) ei x W b = Cert.ReferenceIdeal.HostT.layer1 (F := Ideal) ei x W b := by
  rw [layer1K_eq, layer1R_eq]
  exact after_eq_before _ _ _ _ _ hN gK3 gR3 sK3 sR3 dot33 _ _ x _ _ _ _ W _ (nu ei)
    (fun i => splat_zero _ i) (fun i => splat_zero _ i) (nb3K_apply ei) (nb3R_apply ei) hx hW (fun e => norm_isR ei _)

/-- … and the value is a real number. -/
theorem layer1_isR (W : FVec Ideal Cert.KernelIdeal.S3x3 .f32) (b : FVec Ideal Cert.KernelIdeal.S3 .f32) (hW : ∀ i, IsR (W i)) (hb : ∀ i, IsR (b i)) (i) :
    IsR (Cert.KernelIdeal.HostT.layer1 (F := Ideal) ei x W b i) := by
  rw [layer1K_eq]
  refine after_isR _ _ _ hN gK3 sK3 dot33 _ _ x _ _ W _ (nu ei) (fun i => splat_zero _ i) (nb3K_apply ei) hx hW (fun e => norm_isR ei _) ?_ i
  intro j
  unfold Cert.KernelIdeal.HostT.bias3
  exact bias_isR (by norm_num) b _ _ hb j

/-- Layer two: the two programs agree. -/
theorem layer2_eq (W : FVec Ideal Cert.KernelIdeal.S3x128 .f32) (b : FVec Ideal Cert.KernelIdeal.S128 .f32) (hW : ∀ i, IsR (W i)) :
    Cert.KernelIdeal.HostT.layer2 (F := Ideal) ei x W b = Cert.ReferenceIdeal.HostT.layer2 (F := Ideal) ei x W b := by
  rw [layer2K_eq, layer2R_eq]
  exact after_eq_before _ _ _ _ _ hN gK3 gR128 sK3 sR128 dot3128 _ _ x _ _ _ _ W _ (nu ei)
    (fun i => splat_zero _ i) (fun i => splat_zero _ i) (nb3K_apply ei) (nb128R_apply ei) hx hW (fun e => norm_isR ei _)

end Layers

/-! ## The node features -/

/-- The rectifier-with-slope keeps real numbers real. -/
theorem leaky_isR (h : FVec Ideal Cert.KernelIdeal.S65536x3 .f32) (hh : ∀ i, IsR (h i)) (i) : IsR (Cert.KernelIdeal.HostT.leaky (F := Ideal) h i) := by
  unfold Cert.KernelIdeal.HostT.leaky
  exact slope_isR _ _ _ hh (fun j => splat_isR _ _ tenth_isR j) i

/-- The two programs' rectifier-with-slope are one term. -/
theorem leakyR_eq (h : FVec Ideal Cert.KernelIdeal.S65536x3 .f32) : Cert.ReferenceIdeal.HostT.leaky (F := Ideal) h = Cert.KernelIdeal.HostT.leaky (F := Ideal) h := rfl

/-- THE NODE FEATURES AGREE, for real node data, weight matrices and first bias. -/
theorem feats_eq (ei : IVec Cert.KernelIdeal.S2x1048576 32) (x : FVec Ideal Cert.KernelIdeal.S65536x3 .f32) (W1 : FVec Ideal Cert.KernelIdeal.S3x3 .f32)
    (b1 : FVec Ideal Cert.KernelIdeal.S3 .f32) (W2 : FVec Ideal Cert.KernelIdeal.S3x128 .f32) (b2 : FVec Ideal Cert.KernelIdeal.S128 .f32)
    (hx : ∀ i, IsR (x i)) (hW1 : ∀ i, IsR (W1 i)) (hb1 : ∀ i, IsR (b1 i)) (hW2 : ∀ i, IsR (W2 i)) :
    Cert.KernelIdeal.HostT.feats (F := Ideal) ei x W1 b1 W2 b2 = Cert.ReferenceIdeal.HostT.feats (F := Ideal) ei x W1 b1 W2 b2 := by
  unfold Cert.KernelIdeal.HostT.feats Cert.ReferenceIdeal.HostT.feats
  rw [← layer1_eq ei x hx W1 b1 hW1, leakyR_eq]
  exact layer2_eq ei _ (leaky_isR _ (layer1_isR ei x hx W1 b1 hW1 hb1)) W2 b2 hW2

end Cert.Bridge

end
-- ==== Proof.PreReal.lean ====
/-
  The precondition gives real inputs.

  The precondition is a conjunction, one conjunct per float argument, of "every entry's absolute value is below the
  word of plus infinity". On the extended reals the absolute value is `max x (−x)` and that word reads `⊤`, so a
  conjunct says that no entry is `⊤` or `⊥`: every entry is a real number. Read here for the four arguments the
  layers' law needs: the node data, the two weight matrices and the first bias.
-/
import proofs.«178894_j54752243089440_2_alg».proof.Defs
import proofs.«178894_j54752243089440_2_alg».proof.Proof.Gen.Pre_finite_inputs
import proofs.«178894_j54752243089440_2_alg».proof.Proof.LibGcnLayer
import proofs.«178894_j54752243089440_2_alg».proof.Proof.LibColBroadcast
import Idealize.ShloMosaic.Lib.ReduceAll

noncomputable section

namespace Cert.Bridge

open Idealize.ShloMosaic Idealize.ShloMosaic.ValueIdx Idealize.ShloMosaic.TcCoe Cert.Gcn

instance : Subsingleton (⟨0, ![]⟩ : Shape).Idx := ⟨fun a b => funext fun d => d.elim0⟩

/-- An extended real whose absolute value is below `⊤` is a real number. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0 := by simp [Ideal.cmp, hn]
    rw [h0] at h
    exact absurd h (by decide)
  induction x using EReal.rec with
  | bot => simp at hlt
  | coe r => exact ⟨r, rfl⟩
  | top => simp at hlt

/-- "All entries' absolute values are below plus infinity", over any shape, makes every entry a real number. -/
theorem all_abs_lt_isR {s : Shape} (x : FVec Ideal s .f32) (b : (⟨0, ![]⟩ : Shape).BroadcastsInDim s ![])
    {axes : List (Fin s.rank)} (hr : s.ReducesTo axes ⟨0, ![]⟩) (hu : 0 < (⟨0, ![]⟩ : Shape).numel)
    (h : Host.reduce IntOp.andi (cmpf .olt (Host.absf x) (broadcastInDim s ![] b (constant (F := Ideal) ⟨0, ![]⟩ .f32 0x7F800000#32)))
          (constantI ⟨0, ![]⟩ 1 1#1) hr hu ix0 = 1#1) (i : s.Idx) : IsR (x i) := by
  have e := Host.reduce_andi_all _ _ hr hu ix0 h i
  have e2 : (broadcastInDim s ![] b (constant (F := Ideal) ⟨0, ![]⟩ .f32 0x7F800000#32)) i = Ideal.ofBits .f32 0x7F800000#32 :=
    Cert.Lib.ColBroadcast.scalar_apply _ b i
  refine isR_of_abs_lt (x i) ?_
  rw [← e2]
  exact e

/-- THE FOUR ARGUMENTS the layers' law needs are arrays of real numbers. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsR (m ((c.tc : Thread Cert.KernelIdeal.nD Cert.KernelIdeal.τ).loc Cert.KernelIdeal.main_arg0) i))
    ∧ (∀ i, IsR (m ((c.tc : Thread Cert.KernelIdeal.nD Cert.KernelIdeal.τ).loc Cert.KernelIdeal.main_arg2) i))
    ∧ (∀ i, IsR (m ((c.tc : Thread Cert.KernelIdeal.nD Cert.KernelIdeal.τ).loc Cert.KernelIdeal.main_arg3) i))
    ∧ (∀ i, IsR (m ((c.tc : Thread Cert.KernelIdeal.nD Cert.KernelIdeal.τ).loc Cert.KernelIdeal.main_arg4) i)) := by
  have h0 := congrFun (h c) ix0
  dsimp only [Cert.Pre_finite_inputs.fn, Cert.Pre_finite_inputs.fn_part1, andi] at h0
  simp only [IntOp.andi_eq_one] at h0
  obtain ⟨⟨⟨⟨⟨⟨h0', h2⟩, h3⟩, h4⟩, _⟩, _⟩, _⟩ := h0
  exact ⟨all_abs_lt_isR _ _ _ _ h0', all_abs_lt_isR _ _ _ _ h2, all_abs_lt_isR _ _ _ _ h3, all_abs_lt_isR _ _ _ _ h4⟩

end Cert.Bridge

end
-- ==== Proof.Bridge.lean ====
/-
  The kernel's result array is the reference's result, as functions of the eight arguments.

  The reference ends with the features re-laid as `[256, 32768]`, times the last matrix, plus the last bias repeated
  over the rows: entry `(p, q)` is `∑_k A (p, k) · W3 (k, q) + b3 q`. The kernel's matrix-product region, launched on
  the arrays its host side prepared, leaves the same sum (its eight contraction tiles regrouped) plus the bias read
  from the one-row array the host side re-laid `b3` as. The two left operands are the two programs' node features
  re-laid, which agree for real inputs (`feats_eq`), and the precondition makes the inputs real (`pre_real`).
-/
import proofs.«178894_j54752243089440_2_alg».proof.Proof.Gen.KernelIdeal.Value
import proofs.«178894_j54752243089440_2_alg».proof.Proof.HostEq
import proofs.«178894_j54752243089440_2_alg».proof.Proof.PreReal
import Idealize.ShloMosaic.Lib.ValueLayout

noncomputable section

namespace Cert.Bridge

open Idealize.ShloMosaic Idealize.ShloMosaic.ValueIdx Idealize.ShloMosaic.TcCoe Cert.Gcn
open Cert.Lib.MatProd (prod dotGeneral_eq_prod)

/-- A host dense layer as a whole function: rows times columns, plus the bias vector repeated over the rows — the bias
    written as the entry of the vector re-laid as one row, which is how a kernel's one-row operand spells it. -/
theorem dense_eq {M K N : ℕ} (D : DotDims ⟨2, ![M, K]⟩ ⟨2, ![K, N]⟩ ⟨2, ![M, N]⟩)
    (hdot : ∀ (l : FVec Ideal ⟨2, ![M, K]⟩ .f32) (r : FVec Ideal ⟨2, ![K, N]⟩ .f32), Host.dotGeneral D none l r = prod l r)
    (hN : N ≠ 1) (A : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral D none A W) (broadcastInDim ⟨2, ![M, N]⟩ ![0, 1] h2 (broadcastInDim ⟨2, ![1, N]⟩ ![1] h1 b))
      = fun i => prod A W i + shapeCast ⟨2, ![1, N]⟩ b hc (ix2 (⟨0, Nat.one_pos⟩ : Fin 1) (i 1)) := by
  funext i
  obtain ⟨p, q, rfl⟩ : ∃ (p : Fin M) (q : Fin N), i = ix2 p q := ⟨i 0, i 1, eq_ix2 i⟩
  rw [addf_apply, hdot, Cert.Lib.DenseLayer.bias_apply hN]
  show _ + b (ix1 q) = _ + shapeCast _ b hc (ix2 _ q)
  rw [shapeCast_a_1a_apply]

/-- The last contraction is rows times columns. -/
theorem dot256 (l : FVec Ideal ⟨2, ![256, 32768]⟩ .f32) (r : FVec Ideal ⟨2, ![32768, 512]⟩ .f32) :
    Host.dotGeneral Cert.ReferenceIdeal.dot_S256x32768_S32768x512_S256x512_1_0_0_1_n_n none l r = prod l r :=
  dotGeneral_eq_prod _ rfl rfl (fun _ _ => rfl) (fun _ _ => rfl) (fun _ _ => rfl) (fun _ _ => rfl) none l r

/-- The reference's result, entry by entry. -/
theorem ref_result_eq (ei : IVec Cert.ReferenceIdeal.S2x1048576 32) (x : FVec Ideal Cert.ReferenceIdeal.S65536x3 .f32)
    (W1 : FVec Ideal Cert.ReferenceIdeal.S3x3 .f32) (b1 : FVec Ideal Cert.ReferenceIdeal.S3 .f32)
    (W2 : FVec Ideal Cert.ReferenceIdeal.S3x128 .f32) (b2 : FVec Ideal Cert.ReferenceIdeal.S128 .f32)
    (W3 : FVec Ideal Cert.ReferenceIdeal.S32768x512 .f32) (b3 : FVec Ideal Cert.ReferenceIdeal.S512 .f32) :
    Cert.ReferenceIdeal.HostT.result (F := Ideal) ei x W1 b1 W2 b2 W3 b3
      = fun i => prod (shapeCast Cert.ReferenceIdeal.S256x32768 (Cert.ReferenceIdeal.HostT.feats (F := Ideal) ei x W1 b1 W2 b2)
                        Cert.ReferenceIdeal.Facts₀.shapeCasts_S65536x128_S256x32768) W3 i
                  + shapeCast Cert.KernelIdeal.S1x512 b3 Cert.KernelIdeal.Facts₀.shapeCasts_S512_S1x512 (ix2 (⟨0, Nat.one_pos⟩ : Fin 1) (i 1)) := by
  unfold Cert.ReferenceIdeal.HostT.result
  exact dense_eq _ dot256 (by norm_num) _ _ _ _ _ _

section Kernel

open Cert.KernelIdeal Cert.KernelIdeal.Gen

variable (m : (ℓ : Loc nD τ sig) → Buf (Elt Ideal) ℓ)

/-- THE KERNEL'S RESULT ARRAY IS THE REFERENCE'S RESULT of the same arguments, given that the region leaves rows times
    columns plus the bias row of the arrays it was launched on (`hG`) and that the precondition holds. -/
theorem kernel_out (c : Dev nD) (hpre : Cert.Pre_KernelIdeal m)
    (hG : Cert.KernelIdeal.Value.G3 (F := Ideal) m c
        = fun i => prod (M := 256) (K := 32768) (N := 512) (V m c main_v70) (V m c main_arg6) i
                    + V m c main_v71 (ix2 (⟨0, Nat.one_pos⟩ : Fin 1) (i 1))) :
    Cert.KernelIdeal.Value.G3 (F := Ideal) m c
      = Cert.ReferenceIdeal.HostT.result (F := Ideal) (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  obtain ⟨h0, h2, h3, h4⟩ := pre_real m hpre c
  rw [hG, ref_result_eq, Cert.KernelIdeal.HostT.V_v70, V_main_arg6, Cert.KernelIdeal.HostT.V_v71]
  unfold Cert.KernelIdeal.HostT.h2d
  rw [feats_eq _ _ _ _ _ _ h0 h2 h3 h4]

end Kernel

end Cert.Bridge

end
-- ==== Proof.lean ====
/-
  The certificate's claim for a two-layer graph convolution followed by a dense projection.

  Both programs take node data `[65536, 3]`, an edge array `[2, 1048576]`, and the weights and biases of two
  graph-convolution layers (3 → 3 and 3 → 128 features) and of a dense layer `[32768, 512]`. Both append one loop per
  node to the edges, weigh an edge by `1 / sqrt (deg src) · 1 / sqrt (deg dst)`, and in each layer send every edge's
  weighted source row to its destination, where the rows are summed; the reference multiplies by the layer's matrix
  BEFORE the edges are summed, the kernel's host side AFTER. A linear map commutes with a weighted sum of finitely many
  rows, so the two agree — on the extended reals provided the rows, the matrix and the edge weights are real numbers,
  which the precondition (every float input finite) and the positivity of a degree wherever its reciprocal square
  root is taken give. The last layer is a matrix product plus a bias; the kernel computes it in a region of 2 × 8
  grid points, each output block accumulated over eight tiles of the contracted axis from zero, the bias added at
  the last tile: a regrouping of one finite sum, which needs no finiteness.

  The kernel's run and value come from the generated frame and value modules, the reference's run from the run module
  `RefRunP`. `preserves` is trivial: the ideal pass rewrote nothing.
-/
import proofs.«178894_j54752243089440_2_alg».proof.Defs
import proofs.«178894_j54752243089440_2_alg».proof.Proof.Gen.Kernel.Frame
import proofs.«178894_j54752243089440_2_alg».proof.Proof.Gen.KernelIdeal.Value
import proofs.«178894_j54752243089440_2_alg».proof.Proof.Gen.Pre_finite_inputs
import proofs.«178894_j54752243089440_2_alg».proof.Proof.RefRunP
import proofs.«178894_j54752243089440_2_alg».proof.Proof.KernelProj
import proofs.«178894_j54752243089440_2_alg».proof.Proof.Bridge
import Idealize.ShloMosaic.Adequacy
import Idealize.ShloMosaic.Init

noncomputable section

namespace Cert.Proof

open Idealize.ShloMosaic Idealize.SL.Sem

/-- The idealized kernel runs and keeps its arguments: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and keeps its arguments: its run, the result dropped. -/
theorem frame_ReferenceIdeal : frame_ReferenceIdeal := fun m ρ _ =>
  (θ_run Cert.ReferenceIdeal.defs _ _).mono (fun _ h c => (h c).2) (Cert.ReferenceIdeal.RunP.run (F := Ideal) m ρ)

/-- From memories agreeing on the arguments both programs end at the same array: the kernel's region leaves rows times
    columns plus the bias row of the arrays its host side prepared (`Cert.KernelIdeal.Proj.G3_eq`), and that is the
    reference's result of the same arguments under the precondition (`Cert.Bridge.kernel_out`). -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.RunP.run (F := Ideal) m' ρ')
  rw [(h c).1, Cert.ReferenceIdeal.HostT.res_eq]
  obtain ⟨a0, a1, a2, a3, a4, a5, a6, a7⟩ := hagree c
  rw [a0, a1, a2, a3, a4, a5, a6, a7]
  exact (Cert.Bridge.kernel_out m c hpre (Cert.KernelIdeal.Proj.G3_eq m c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
